-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x1024 : Shape := ⟨3, ![32, 8, 1024]⟩
abbrev S100000x1024 : Shape := ⟨2, ![100000, 1024]⟩
abbrev S100000 : Shape := ⟨1, ![100000]⟩
abbrev S_ : Shape := ⟨0, ![]⟩

class Facts : Prop where
  bcast_S_S32x8x1024 : S_.BroadcastsInDim S32x8x1024 (![] : Fin 0 → Fin S32x8x1024.rank)
  reducesTo_S32x8x1024_S_d0_1_2 : S32x8x1024.ReducesTo [0, 1, 2] S_
  h_S_ : 0 < S_.numel
  bcast_S_S100000x1024 : S_.BroadcastsInDim S100000x1024 (![] : Fin 0 → Fin S100000x1024.rank)
  reducesTo_S100000x1024_S_d0_1 : S100000x1024.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S32x8x1024 .f32) (main_arg1 : FVec F S100000x1024 .f32) (main_arg2 : FVec F S100000 .f32) : IVec S_ 1 :=
  let main_v0 : FVec F S32x8x1024 .f32 := Host.absf main_arg0
  let main_cst : FVec F S_ .f32 := constant S_ .f32 0x7F800000#32
  let main_v1 : FVec F S32x8x1024 .f32 := broadcastInDim S32x8x1024 ![] bcast_S_S32x8x1024 main_cst
  let main_v2 : IVec S32x8x1024 1 := cmpf .olt main_v0 main_v1
  let main_c : IVec S_ 1 := constantI S_ 1 1#1
  let main_v3 : IVec S_ 1 := (fun x v => Host.reduce IntOp.andi x v reducesTo_S32x8x1024_S_d0_1_2 h_S_) main_v2 main_c
  let main_v4 : FVec F S100000x1024 .f32 := Host.absf main_arg1
  let main_cst_0 : FVec F S_ .f32 := constant S_ .f32 0x7F800000#32
  let main_v5 : FVec F S100000x1024 .f32 := broadcastInDim S100000x1024 ![] bcast_S_S100000x1024 main_cst_0
  let main_v6 : IVec S100000x1024 1 := cmpf .olt main_v4 main_v5
  let main_c_1 : IVec S_ 1 := constantI S_ 1 1#1
  let main_v7 : IVec S_ 1 := (fun x v => Host.reduce IntOp.andi x v reducesTo_S100000x1024_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S32x8x1024 : Shape := ⟨3, ![32, 8, 1024]⟩
abbrev S100000x1024 : Shape := ⟨2, ![100000, 1024]⟩
abbrev S100000 : Shape := ⟨1, ![100000]⟩
abbrev S256x1024 : Shape := ⟨2, ![256, 1024]⟩
abbrev S1x100000 : Shape := ⟨2, ![1, 100000]⟩
abbrev S256x100000 : Shape := ⟨2, ![256, 100000]⟩
abbrev S3072x512 : Shape := ⟨2, ![3072, 512]⟩
abbrev S1x3072 : Shape := ⟨2, ![1, 3072]⟩
abbrev S256x3072 : Shape := ⟨2, ![256, 3072]⟩
abbrev S256x512 : Shape := ⟨2, ![256, 512]⟩
abbrev S32x8x100000 : Shape := ⟨3, ![32, 8, 100000]⟩

abbrev nBuf : Space → Nat
  | .hbm => 7
  | .vmem => 9
  | .smem => 0
  | _ => 0

abbrev bufTy : (tb : Table) → Fin (tcTables nBuf tb) → BufTy
  | .hbm, ⟨0, _⟩ => ⟨S32x8x1024, .f32⟩
  | .hbm, ⟨1, _⟩ => ⟨S100000x1024, .f32⟩
  | .hbm, ⟨2, _⟩ => ⟨S100000, .f32⟩
  | .hbm, ⟨3, _⟩ => ⟨S256x1024, .f32⟩
  | .hbm, ⟨4, _⟩ => ⟨S1x100000, .f32⟩
  | .hbm, ⟨5, _⟩ => ⟨S256x100000, .f32⟩
  | .hbm, ⟨6, _⟩ => ⟨S32x8x100000, .f32⟩
  | .local _ .vmem, ⟨0, _⟩ => ⟨S256x1024, .f32⟩
  | .local _ .vmem, ⟨1, _⟩ => ⟨S3072x512, .f32⟩
  | .local _ .vmem, ⟨2, _⟩ => ⟨S3072x512, .f32⟩
  | .local _ .vmem, ⟨3, _⟩ => ⟨S3072x512, .f32⟩
  | .local _ .vmem, ⟨4, _⟩ => ⟨S3072x512, .f32⟩
  | .local _ .vmem, ⟨5, _⟩ => ⟨S1x3072, .f32⟩
  | .local _ .vmem, ⟨6, _⟩ => ⟨S1x3072, .f32⟩
  | .local _ .vmem, ⟨7, _⟩ => ⟨S256x3072, .f32⟩
  | .local _ .vmem, ⟨8, _⟩ => ⟨S256x3072, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x8x1024_S256x1024 : S32x8x1024.ShapeCasts S256x1024
  shapeCasts_S100000_S1x100000 : S100000.ShapeCasts S1x100000
  inb_S256x1024_S256x512_0_0 : ∀ a, (![0, 0] : Fin 2 → Nat) a + S256x512.size a ≤ S256x1024.size a
  h_S256x512 : 0 < S256x512.numel
  shapeCasts_S256x512_S256x512 : S256x512.ShapeCasts S256x512
  bitsLt_bf16_f32 : FTy.bits .bf16 < FTy.bits .f32
  inb_S256x1024_S256x512_0_512 : ∀ a, (![0, 512] : Fin 2 → Nat) a + S256x512.size a ≤ S256x1024.size a
  inb_S3072x512_S3072x512_0_0 : ∀ a, (![0, 0] : Fin 2 → Nat) a + S3072x512.size a ≤ S3072x512.size a
  h_S3072x512 : 0 < S3072x512.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  inb_S256x3072_S256x3072_0_0 : ∀ a, (![0, 0] : Fin 2 → Nat) a + S256x3072.size a ≤ S256x3072.size a
  h_S256x3072 : 0 < S256x3072.numel
  shapeCasts_S256x100000_S32x8x100000 : S256x100000.ShapeCasts S32x8x100000
  dot_S256x512_S3072x512_S256x3072_1_1_0_0_n_n_wf : DotDims.WF S256x512 S3072x512 S256x3072 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x1024.size a
  hwx0_0 : ∀ i : grid0.Coords, EltTy.bits .f32 = 32 ∨ (Rect.block (s := S256x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S3072x512.size a < S100000x1024.size a
  hwx0_1 : ∀ i : grid0.Coords, EltTy.bits .f32 = 32 ∨ (Rect.unit (s := S100000x1024) (fun a => cc0_transform_1 i a * S3072x512.size a) (fun a => (Pipeline.Clip.of (cc0_transform_1 i a) (S3072x512.size a) (S100000x1024.size a)).extent (S3072x512.size a)) fun a => Pipeline.Clip.inb (Pipeline.Clip.ok_of (hstart0_1 i a))).WholeWords (EltTy.packing .f32)
  hwxs0_1 : ∀ i : grid0.Coords, EltTy.bits .f32 = 32 ∨ (Rect.unit (s := S3072x512) (fun _ => 0) (fun a => (Pipeline.Clip.of (cc0_transform_1 i a) (S3072x512.size a) (S100000x1024.size a)).extent (S3072x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S3072x512.size a < S100000x1024.size a
  hwx0_2 : ∀ i : grid0.Coords, EltTy.bits .f32 = 32 ∨ (Rect.unit (s := S100000x1024) (fun a => cc0_transform_2 i a * S3072x512.size a) (fun a => (Pipeline.Clip.of (cc0_transform_2 i a) (S3072x512.size a) (S100000x1024.size a)).extent (S3072x512.size a)) fun a => Pipeline.Clip.inb (Pipeline.Clip.ok_of (hstart0_2 i a))).WholeWords (EltTy.packing .f32)
  hwxs0_2 : ∀ i : grid0.Coords, EltTy.bits .f32 = 32 ∨ (Rect.unit (s := S3072x512) (fun _ => 0) (fun a => (Pipeline.Clip.of (cc0_transform_2 i a) (S3072x512.size a) (S100000x1024.size a)).extent (S3072x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x3072.size a < S1x100000.size a
  hwx0_3 : ∀ i : grid0.Coords, EltTy.bits .f32 = 32 ∨ (Rect.unit (s := S1x100000) (fun a => cc0_transform_3 i a * S1x3072.size a) (fun a => (Pipeline.Clip.of (cc0_transform_3 i a) (S1x3072.size a) (S1x100000.size a)).extent (S1x3072.size a)) fun a => Pipeline.Clip.inb (Pipeline.Clip.ok_of (hstart0_3 i a))).WholeWords (EltTy.packing .f32)
  hwxs0_3 : ∀ i : grid0.Coords, EltTy.bits .f32 = 32 ∨ (Rect.unit (s := S1x3072) (fun _ => 0) (fun a => (Pipeline.Clip.of (cc0_transform_3 i a) (S1x3072.size a) (S1x100000.size a)).extent (S1x3072.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S256x3072.size a < S256x100000.size a
  hwx0_4 : ∀ i : grid0.Coords, EltTy.bits .f32 = 32 ∨ (Rect.unit (s := S256x100000) (fun a => cc0_transform_4 i a * S256x3072.size a) (fun a => (Pipeline.Clip.of (cc0_transform_4 i a) (S256x3072.size a) (S256x100000.size a)).extent (S256x3072.size a)) fun a => Pipeline.Clip.inb (Pipeline.Clip.ok_of (hstart0_4 i a))).WholeWords (EltTy.packing .f32)
  hwxs0_4 : ∀ i : grid0.Coords, EltTy.bits .f32 = 32 ∨ (Rect.unit (s := S256x3072) (fun _ => 0) (fun a => (Pipeline.Clip.of (cc0_transform_4 i a) (S256x3072.size a) (S256x100000.size a)).extent (S256x3072.size a)) fun a => (Nat.zero_add _).trans_le (Pipeline.Clip.extent_le (Pipeline.Clip.ok_of (hstart0_4 i a)))).WholeWords (EltTy.packing .f32)

variable [Facts₀]

def dot_S256x512_S3072x512_S256x3072_1_1_0_0_n_n : DotDims S256x512 S3072x512 S256x3072 where
  lhsContracting := [1]
  rhsContracting := [1]
  lhsNonContracting := [0]
  rhsNonContracting := [0]
  lhsBatch := []
  rhsBatch := []
  wf := dot_S256x512_S3072x512_S256x3072_1_1_0_0_n_n_wf

abbrev win0_0 : Pipeline.Window sig grid0 :=
  Pipeline.Window.ofSpec (Memref.whole main_v0) S256x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S3072x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg1) S3072x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S1x3072.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v2) S256x3072.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x8x1024 : Shape := ⟨3, ![32, 8, 1024]⟩
abbrev S100000x1024 : Shape := ⟨2, ![100000, 1024]⟩
abbrev S100000 : Shape := ⟨1, ![100000]⟩
abbrev S32x8x100000 : Shape := ⟨3, ![32, 8, 100000]⟩
abbrev S1x1x100000 : Shape := ⟨3, ![1, 1, 100000]⟩

abbrev nBuf : Space → Nat
  | .hbm => 7
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S100000x1024, .f32⟩
  | .hbm, ⟨2, _⟩ => ⟨S100000, .f32⟩
  | .hbm, ⟨3, _⟩ => ⟨S32x8x100000, .f32⟩
  | .hbm, ⟨4, _⟩ => ⟨S1x1x100000, .f32⟩
  | .hbm, ⟨5, _⟩ => ⟨S32x8x100000, .f32⟩
  | .hbm, ⟨6, _⟩ => ⟨S32x8x100000, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S100000_S1x1x100000_2 : S100000.BroadcastsInDim S1x1x100000 (![2] : Fin 1 → Fin S1x1x100000.rank)
  bcast_S1x1x100000_S32x8x100000_0_1_2 : S1x1x100000.BroadcastsInDim S32x8x100000 (![0, 1, 2] : Fin 3 → Fin S32x8x100000.rank)
  dot_S32x8x1024_S100000x1024_S32x8x100000_2_1_01_0_n_n_wf : DotDims.WF S32x8x1024 S100000x1024 S32x8x100000 [2] [1] [0, 1] [0] [] []

variable [Facts₀]

def dot_S32x8x1024_S100000x1024_S32x8x100000_2_1_01_0_n_n : DotDims S32x8x1024 S100000x1024 S32x8x100000 where
  lhsContracting := [2]
  rhsContracting := [1]
  lhsNonContracting := [0, 1]
  rhsNonContracting := [0]
  lhsBatch := []
  rhsBatch := []
  wf := dot_S32x8x1024_S100000x1024_S32x8x100000_2_1_01_0_n_n_wf

class Facts : Prop extends Facts₀ where

variable [Facts]
-- ==== Proof.DataK.lean ====
/-
  The kernel program's run, for any float instance: @main is two reshapes (the activations to [256, 1024], the
  bias to a [1, 100000] row), one pipelined region over 33 vocabulary blocks of 3072 columns, and a reshape of the
  [256, 100000] result to [32, 8, 100000].

  The region's five windows: the activations (one block, the whole array, fetched once); the weight matrix TWICE,
  as its low and its high 512 feature columns, both windows on the one weight array, which is therefore held at
  two half shares, one per window, and put back together when the region ends; the bias row; the result. The last
  vocabulary block overhangs the arrays' end (33 · 3072 = 101376 > 100000): its transfers move only the part
  inside the array, and what a staging buffer holds past that part is not named by anything.

  So the proof data is relational: of each input window it says that the body leaves the staging buffer as it
  found it; of the result's window it says what the caller of this module chooses (the parameter `Rel`): nothing
  at all for the claim that the program runs and keeps its arguments, the block's part inside the array in closed
  form for the claim about the result's value.
-/
import proofs.«145559_g35098472743185_cont_8to1_b_329_11_alg».proof.Proof.Gen.Kernel.Launch
import proofs.«145559_g35098472743185_cont_8to1_b_329_11_alg».proof.Proof.Gen.Kernel.Points
import Idealize.ShloMosaic.Lib.Pipeline.Regions
import Idealize.ShloMosaic.Lib.Pipeline.Kit

noncomputable section

namespace Cert.Kernel.Run

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-- The proof's resource algebra is one copy of the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-! ## The buffers before the region: the two reshapes have run -/

/-- Core `c`'s buffers at launch, -/
abbrev V₀ (c : Dev nD) : Valuation τ sig (Elt F) := fun b => m ((c : Dev nD), b)
/-- and when the region is entered. -/
abbrev V (c : Dev nD) (b : Ref sig .tc) : Buf (Elt F) ((c : Thread nD τ).loc b) := StableHlo.after hostOps0 (V₀ m c) b

/-! ## The proof data -/

/-- What the caller says of the result window's staging buffer after the body at a point. -/
abbrev OutRel (F : FTy → Type) : Type := Dev nD → Fin cfg0.N → (S256x3072.Idx → Elt F .f32) → Prop

/-- The proof data on core `c`: the arrays as the reshapes left them; every input's staging buffer left as found,
    the result's in the caller's relation; no invariant; nothing owed; the weight array's share dealt in halves
    to the two windows on it. -/
def rdats (Rel : OutRel F) (_ : Fin 1) (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => Rel c t X
  Φ _ := iprop(emp)
  q w := match w with
    | ⟨0, _⟩ => fullShare
    | ⟨1, _⟩ => fullShare.left
    | ⟨2, _⟩ => fullShare.right
    | ⟨3, _⟩ => fullShare
    | ⟨4, _⟩ => fullShare
  owed _ := 0

abbrev 𝒱₀ : Variants := Variants.none

end Cert.Kernel.Run

end
-- ==== Proof.RunK.lean ====
/-
  The launch of the kernel program, for any float instance: @main as its three segments (two reshapes; the pipelined
  region; the reshape of the result) composed by the library's theorem for a program given as a list of segments.
  The weight array, read by two windows, enters the region split into two half shares, one per window, and is put
  back together at the region's exit; the result array leaves the region at SOME contents the write-backs may have
  left, which the last reshape and the final reading carry along as an existential.
-/
import proofs.«145559_g35098472743185_cont_8to1_b_329_11_alg».proof.Proof.DataK

noncomputable section

namespace Cert.Kernel.Run

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers, one by one -/

/-- The TensorCore's unscoped references, as device buffers: the set the host operations run within. -/
def ucRefs : Finset (DevRef τ sig) := (StableHlo.tcRefs τ sig).filter fun b => ¬ b.isScoped

omit [FloatOps F] in
/-- A core's unscoped buffers at a valuation are that set held at it. -/
theorem held_ucRefs (c : Dev nD) (W : Valuation τ sig (Elt F)) :
    (StableHlo.held (c : Thread nD τ) ucRefs W : sProp 𝕄) = unscopedBufs c (fun b => W b) := by
  unfold unscopedBufs StableHlo.held ucRefs StableHlo.tcRefs
  rw [Finset.filter_map, bigSep_map]
  rfl

omit [FloatOps F] in
/-- An operation on TensorCore references touches unscoped ones only: a host operation names no scoped buffer. -/
theorem bufs_sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

omit [FloatOps F] in
/-- The seven unscoped buffers of a core, as a chain: the three arguments, the two reshaped inputs, the region's
    result and the program's. -/
theorem unscopedBufs_chain (c : Dev nD) (W : (b : Ref sig .tc) → Buf (Elt F) ((c : Thread nD τ).loc b)) :
    (unscopedBufs c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_v0) ↦{fullShare} W main_v0)
          ∗ (((c : Thread nD τ).loc main_v1) ↦{fullShare} W main_v1) ∗ (((c : Thread nD τ).loc main_v2) ↦{fullShare} W main_v2)
          ∗ (((c : Thread nD τ).loc main_v3) ↦{fullShare} W main_v3)) := by
  unfold unscopedBufs
  exact bigSep_eq_bigSepL_of_eq [main_arg0, main_arg1, main_arg2, main_v0, main_v1, main_v2, main_v3] (by decide) (by decide) _

/-! ## The pipeline's arrays, one by one -/

variable (Rel : OutRel F)

omit [FloatOps F] in
/-- The five windows' arrays as a chain: the flattened activations, the weight array at its two half shares, the
    bias row, the result. -/
theorem arrays_chain (c : Dev nD) (Fs : (w : Fin cfg0.W) → Buf (Elt F) ((cfg0.win w).arr.view.loc (c : Thread nD τ))) :
    ((rdats m Rel 0 c).arrays Fs : sProp 𝕄)
      = iprop((((c : Thread nD τ).loc main_v0) ↦{fullShare} Fs 0) ∗ (((c : Thread nD τ).loc main_arg1) ↦{fullShare.left} Fs 1)
          ∗ (((c : Thread nD τ).loc main_arg1) ↦{fullShare.right} Fs 2) ∗ (((c : Thread nD τ).loc main_v1) ↦{fullShare} Fs 3)
          ∗ (((c : Thread nD τ).loc main_v2) ↦{fullShare} Fs 4)) := by
  unfold RDat.arrays
  rw [bigSep_W0]
  have e : ∀ (w : Fin cfg0.W) (q : PosShare TreeShare), (rdats m Rel 0 c).share w = q →
      (((cfg0.win w).arr.view.loc (c : Thread nD τ)) ↦[(cfg0.win w).arr.view.set]{(rdats m Rel 0 c).share w} Fs w : sProp 𝕄)
        = (((cfg0.win w).arr.view.loc (c : Thread nD τ)) ↦{q} Fs w) := fun w q h => by
    rw [(arr_whole0 w).set_eq_univ, h]
  rw [e 0 fullShare rfl, e 1 fullShare.left rfl, e 2 fullShare.right rfl, e 3 fullShare rfl, e 4 fullShare rfl]

omit [FloatOps F] in
/-- The same for the arrays after the write-backs below a point, each at some contents it may then hold. -/
theorem arraysAt_chain (c : Dev nD) (n : Nat) :
    ((rdats m Rel 0 c).arraysAt n : sProp 𝕄)
      = iprop((∃ G : Buf (Elt F) ((cfg0.win 0).arr.view.loc (c : Thread nD τ)), ⌜(rdats m Rel 0 c).ArrAt 0 n G⌝ ∗ ((cfg0.win 0).arr.view.loc (c : Thread nD τ)) ↦{fullShare} G)
          ∗ (∃ G : Buf (Elt F) ((cfg0.win 1).arr.view.loc (c : Thread nD τ)), ⌜(rdats m Rel 0 c).ArrAt 1 n G⌝ ∗ ((cfg0.win 1).arr.view.loc (c : Thread nD τ)) ↦{fullShare.left} G)
          ∗ (∃ G : Buf (Elt F) ((cfg0.win 2).arr.view.loc (c : Thread nD τ)), ⌜(rdats m Rel 0 c).ArrAt 2 n G⌝ ∗ ((cfg0.win 2).arr.view.loc (c : Thread nD τ)) ↦{fullShare.right} G)
          ∗ (∃ G : Buf (Elt F) ((cfg0.win 3).arr.view.loc (c : Thread nD τ)), ⌜(rdats m Rel 0 c).ArrAt 3 n G⌝ ∗ ((cfg0.win 3).arr.view.loc (c : Thread nD τ)) ↦{fullShare} G)
          ∗ (∃ G : Buf (Elt F) ((cfg0.win 4).arr.view.loc (c : Thread nD τ)), ⌜(rdats m Rel 0 c).ArrAt 4 n G⌝ ∗ ((cfg0.win 4).arr.view.loc (c : Thread nD τ)) ↦{fullShare} G)) := by
  unfold RDat.arraysAt
  rw [bigSep_W0]
  have e : ∀ (w : Fin cfg0.W) (q : PosShare TreeShare), (rdats m Rel 0 c).share w = q →
      (iprop(∃ G : Buf (Elt F) ((cfg0.win w).arr.view.loc (c : Thread nD τ)), ⌜(rdats m Rel 0 c).ArrAt w n G⌝
          ∗ ((cfg0.win w).arr.view.loc (c : Thread nD τ)) ↦[(cfg0.win w).arr.view.set]{(rdats m Rel 0 c).share w} G) : sProp 𝕄)
        = iprop(∃ G : Buf (Elt F) ((cfg0.win w).arr.view.loc (c : Thread nD τ)), ⌜(rdats m Rel 0 c).ArrAt w n G⌝
          ∗ ((cfg0.win w).arr.view.loc (c : Thread nD τ)) ↦{q} G) := fun w q h => by
    rw [(arr_whole0 w).set_eq_univ, h]
  rw [e 0 fullShare rfl, e 1 fullShare.left rfl, e 2 fullShare.right rfl, e 3 fullShare rfl, e 4 fullShare rfl]

/-! ## @main as segments -/

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through every segment: the core owing nothing. -/
abbrev Rw (c : Dev nD) : sProp 𝕄 := iprop(∃ W, owes (c : Thread nD τ) (0 : CellTallies nD τ sig Unit) W)

/-- A line of this program's host operations, over the unscoped buffers at a valuation. -/
def hostSeg (ops : List (HloOp τ sig (Elt F))) (hsub : ops.Forall fun op => op.bufs ⊆ StableHlo.tcRefs τ sig)
    (hf : ∀ op ∈ ops, op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ ucRefs ops (fun op h => bufs_sub_ucRefs op ((List.forall_iff_forall_mem.mp hsub) op h)) hf W Rw

-- the library's rule for a line of host operations is stated for any thread: unification must unfold plain definitions
set_option backward.isDefEq.respectTransparency.types false in
/-- Its specification, with the thread states spelled out: from the buffers at `W c` it runs to the buffers at what the
    operations make of them. -/
theorem hostSeg_spec (ops : List (HloOp τ sig (Elt F))) (hsub : ops.Forall fun op => op.bufs ⊆ StableHlo.tcRefs τ sig)
    (hf : ∀ op ∈ ops, op.fresh = ∅) (W : Dev nD → Valuation τ sig (Elt F)) (c : Dev nD) {β : Type}
    (k : PUnit → Prog (TpuEff nD τ sig (Elt F) (Pipeline.Sig Λ₀ (Fin 1) fun p => (pcfgs (F := F) p).Adm) .tc) β) (K : β → sProp 𝕄) :
    iprop((iprop(boundary (c : Thread nD τ) ∗ StableHlo.held (c : Thread nD τ) ucRefs (StableHlo.after ops (W c)) ∗ Rw c)
          -∗ wp frame (wpE (Pipeline.defs (pcfgs (F := F)) defs₀) (Variants.lift 𝒱₀) (c : Thread nD τ) none) Set.univ (k ⟨⟩) K)
        ∗ boundary (c : Thread nD τ) ∗ (StableHlo.held (c : Thread nD τ) ucRefs (W c) ∗ Rw c) ∗ levAts L lv)
      ⊢ wp frame (wpE (Pipeline.defs (pcfgs (F := F)) defs₀) (Variants.lift 𝒱₀) (c : Thread nD τ) none) Set.univ (StableHlo.seq ops >>= k) K :=
  (hostSeg ops hsub hf W).run c k K

theorem fresh0 : ∀ op ∈ (hostOps0 : List (HloOp τ sig (Elt F))), op.fresh = ∅ := fun op h => by
  simp only [List.mem_cons, List.mem_nil_iff, or_false] at h
  rcases h with rfl | rfl <;> rfl

theorem fresh1 : ∀ op ∈ (hostOps1 : List (HloOp τ sig (Elt F))), op.fresh = ∅ := fun op h => by
  simp only [List.mem_cons, List.mem_nil_iff, or_false] at h
  rcases h with rfl
  rfl

/-- THE FIRST HOST STRETCH: the two reshapes. -/
def seg0 : Pipeline.HostSeg (Name := ℕ) (U := UR sig nD τ) (pcfgs (F := F)) defs₀ 𝒱₀ L lv :=
  hostSeg hostOps0 hostOps0_sub fresh0 (V₀ m)

/-- The buffers when the region has ended, its result array holding `F2`: the others as the region found them. -/
abbrev V1 (c : Dev nD) (F2 : Buf (Elt F) ((c : Thread nD τ).loc main_v2)) : Valuation τ sig (Elt F) :=
  Function.update (StableHlo.after hostOps0 (V₀ m c)) (Proc.devRef .tc main_v2) F2

omit [FloatOps F] in
/-- Away from the result array they are what the region found, -/
theorem V1_of_ne (c : Dev nD) (F2 : Buf (Elt F) ((c : Thread nD τ).loc main_v2)) {b : Ref sig .tc} (hb : b ≠ main_v2) :
    V1 m c F2 (Proc.devRef .tc b) = StableHlo.after hostOps0 (V₀ m c) (Proc.devRef .tc b) :=
  Function.update_of_ne (StableHlo.devRef_ne_of_ne hb) _ _

omit [FloatOps F] in
/-- and at it, `F2`. -/
theorem V1_v2 (c : Dev nD) (F2 : Buf (Elt F) ((c : Thread nD τ).loc main_v2)) : V1 m c F2 (Proc.devRef .tc main_v2) = F2 :=
  Function.update_self _ _ _

omit [FloatOps F] in
/-- Those buffers, one by one. -/
theorem held_V1_chain (c : Dev nD) (F2 : Buf (Elt F) ((c : Thread nD τ).loc main_v2)) :
    (StableHlo.held (c : Thread nD τ) ucRefs (V1 m c F2) : sProp 𝕄)
      = iprop((((c : Thread nD τ).loc main_arg0) ↦{fullShare} V m c main_arg0) ∗ (((c : Thread nD τ).loc main_arg1) ↦{fullShare} V m c main_arg1)
          ∗ (((c : Thread nD τ).loc main_arg2) ↦{fullShare} V m c main_arg2) ∗ (((c : Thread nD τ).loc main_v0) ↦{fullShare} V m c main_v0)
          ∗ (((c : Thread nD τ).loc main_v1) ↦{fullShare} V m c main_v1) ∗ (((c : Thread nD τ).loc main_v2) ↦{fullShare} F2)
          ∗ (((c : Thread nD τ).loc main_v3) ↦{fullShare} V m c main_v3)) := by
  rw [held_ucRefs, unscopedBufs_chain]
  rw [V1_of_ne m c F2 (b := main_arg0) (by decide), V1_of_ne m c F2 (b := main_arg1) (by decide), V1_of_ne m c F2 (b := main_arg2) (by decide),
    V1_of_ne m c F2 (b := main_v0) (by decide), V1_of_ne m c F2 (b := main_v1) (by decide), V1_of_ne m c F2 (b := main_v3) (by decide), V1_v2]

/-- A memory holds, at the program's result and at its three arguments, what the valuation `W` says. -/
def ReadsOf (c : Dev nD) (W : Valuation τ sig (Elt F)) (s : MemSt nD τ sig (Elt F)) : Prop :=
  s.mem ((c : Thread nD τ).loc main_v3) = W (Proc.devRef .tc main_v3)
    ∧ s.mem ((c : Thread nD τ).loc main_arg0) = W (Proc.devRef .tc main_arg0)
    ∧ s.mem ((c : Thread nD τ).loc main_arg1) = W (Proc.devRef .tc main_arg1)
    ∧ s.mem ((c : Thread nD τ).loc main_arg2) = W (Proc.devRef .tc main_arg2)

omit [FloatOps F] in
/-- The unscoped buffers held beside a state's interpretation say what that state's memory holds there. -/
theorem read_held (c : Dev nD) (W : Valuation τ sig (Elt F)) (s' : Phys nD τ sig (Elt F)) :
    iprop(StableHlo.held (c : Thread nD τ) ucRefs W ∗ SI s') ⊢ (iprop(⌜ReadsOf c W s'.mem⌝ ∗ SI s') : sProp 𝕄) := by
  rw [held_ucRefs, unscopedBufs_chain]
  iintro ⟨⟨H0, H1, H2, -, -, -, Hv3⟩, HSI⟩
  icombine HSI H0 gives %e0
  icombine HSI H1 gives %e1
  icombine HSI H2 gives %e2
  icombine HSI Hv3 gives %e3
  isplitr
  · ipureintro
    exact ⟨Buf.eq_of_forall_mem_univ e3, Buf.eq_of_forall_mem_univ e0, Buf.eq_of_forall_mem_univ e1, Buf.eq_of_forall_mem_univ e2⟩
  iexact HSI

/-- The thread state between the region and the last reshape: the result array at SOME contents the write-backs
    may have left (`ArrAt`), every other unscoped buffer as the region found it. -/
abbrev Tmid (c : Dev nD) : sProp 𝕄 :=
  iprop(∃ F2 : Buf (Elt F) ((c : Thread nD τ).loc main_v2), ⌜(rdats m Rel 0 c).ArrAt 4 cfg0.N F2⌝
    ∗ StableHlo.held (c : Thread nD τ) ucRefs (V1 m c F2) ∗ Rw c)

/-- and after it. -/
abbrev Tend (c : Dev nD) : sProp 𝕄 :=
  iprop(∃ F2 : Buf (Elt F) ((c : Thread nD τ).loc main_v2), ⌜(rdats m Rel 0 c).ArrAt 4 cfg0.N F2⌝
    ∗ StableHlo.held (c : Thread nD τ) ucRefs (StableHlo.after hostOps1 (V1 m c F2)) ∗ Rw c)

-- the library's entry lemmas are stated over the pinned configuration: unification must unfold plain definitions
set_option backward.isDefEq.respectTransparency.types false in
/-- THE REGION: the decided layout, no semaphore of the kernel's own, the body obligation; entered from what the first
    stretch left — the four arrays behind the five windows into the pipeline, the weight array split into its two half
    shares, the other three buffers bypassing —, left with the result array at what the write-backs made of it and the
    weight array's halves joined. -/
def reg0 (hbody : ∀ c, (rdats m Rel 0 c).BodyObligation (defs₀ (F := F)) 𝒱₀ () Set.univ) :
    Pipeline.RDat.RegionSeg (pcfgs (F := F)) adm (rdats m Rel) () defs₀ 𝒱₀ L lv 0 where
  win := winFacts₀0
  block_pos := block_pos0
  stage_whole := stage_whole0
  K := PEmpty
  osem := fun k => k.elim
  ho := Pipeline.OwnSemFacts.none _
  hbody := hbody
  hwaits := Pipeline.RDat.hwaits_of_owed_zero _ _ _ _ L lv 0 fun _ _ => rfl
  pre c := iprop(StableHlo.held (c : Thread nD τ) ucRefs (StableHlo.after hostOps0 (V₀ m c)) ∗ Rw c)
  post c := Tmid m Rel c
  X _ := iprop(emp)
  Y _ := iprop(emp)
  Z c := iprop((((c : Thread nD τ).loc main_arg0) ↦{fullShare} V m c main_arg0) ∗ (((c : Thread nD τ).loc main_arg2) ↦{fullShare} V m c main_arg2)
    ∗ (((c : Thread nD τ).loc main_v3) ↦{fullShare} V m c main_v3))
  hentry c := by
    rw [held_ucRefs, unscopedBufs_chain, arrays_chain]
    iintro ⟨⟨⟨H0, H1, H2, Hv0, Hv1, Hv2, Hv3⟩, HO⟩, -, -⟩
    ihave H1s := (pointsTo_share (PosShare.mem_left_op_right fullShare)).1 $$ H1
    icases H1s with ⟨H1l, H1r⟩
    imodintro
    isplitl [Hv0 H1l H1r Hv1 Hv2]
    · isplitl [Hv0]; · iexact Hv0
      isplitl [H1l]; · iexact H1l
      isplitl [H1r]; · iexact H1r
      isplitl [Hv1]; · iexact Hv1
      iexact Hv2
    isplitr
    · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    isplitl [H0]; · iexact H0
    isplitl [H2]; · iexact H2
    iexact Hv3
  hin c := by
    show _ ⊢ (BI.emp : sProp 𝕄)
    iintro -; iempintro
  hout c := by
    rw [scopedRest0_eq, Pipeline.ownSems0_none]
    iintro -
    isplitr; · iempintro
    isplitr <;> iempintro
  hexit c := by
    rw [arraysAt_chain]
    iintro ⟨⟨⟨%G0, %h0, H0⟩, ⟨%G1, %h1, H1⟩, ⟨%G2, %h2, H2⟩, ⟨%G3, %h3, H3⟩, ⟨%G4, %h4, H4⟩⟩, HO, -, ⟨Ha0, Ha2, Hv3⟩⟩
    rw [RDat.ArrAt_in _ _ rfl] at h0 h1 h2 h3
    subst h0 h1 h2 h3
    imodintro
    iexists G4
    isplitr; · ipureintro; exact h4
    isplitr [HO]
    · iapply (Entails.of_eq (held_V1_chain m c G4).symm)
      isplitl [Ha0]; · iexact Ha0
      isplitl [H1 H2]
      · iapply (pointsTo_share (f := V m c main_arg1) (PosShare.mem_left_op_right fullShare)).2
        isplitl [H1]
        · iexact H1
        · iexact H2
      isplitl [Ha2]; · iexact Ha2
      isplitl [H0]; · iexact H0
      isplitl [H3]; · iexact H3
      isplitl [H4]; · iexact H4
      iexact Hv3
    · unfold Pipeline.RDat.owesAt Pipeline.owesWithin
      icases HO with ⟨%W, -, HO⟩; iexists W; iexact HO

-- as above
set_option backward.isDefEq.respectTransparency.types false in
/-- THE LAST HOST STRETCH: the reshape of the result, whatever the region left in the result array. -/
def seg1 : Pipeline.HostSeg (Name := ℕ) (U := UR sig nD τ) (pcfgs (F := F)) defs₀ 𝒱₀ L lv where
  prog := StableHlo.seq hostOps1
  pre c := Tmid m Rel c
  post c := Tend m Rel c
  run c {β} k K := by
    iintro ⟨Hk, Hbd, ⟨%F2, %h, Hh, HR⟩, Hla⟩
    iapply (hostSeg_spec (F := F) hostOps1 hostOps1_sub fresh1 (fun _ => V1 m c F2) c k K)
    isplitl [Hk]
    · iintro ⟨Hbd, Hh, HR⟩
      iapply Hk
      isplitl [Hbd]; · iexact Hbd
      iexists F2
      isplitr; · ipureintro; exact h
      isplitl [Hh] <;> iassumption
    isplitl [Hbd]; · iexact Hbd
    isplitl [Hh HR]
    · isplitl [Hh] <;> iassumption
    iexact Hla

/-- @main as the list of the three. -/
abbrev segs (hbody : ∀ c, (rdats m Rel 0 c).BodyObligation (defs₀ (F := F)) 𝒱₀ () Set.univ) :
    List (Pipeline.RDat.Seg (pcfgs (F := F)) adm (rdats m Rel) () defs₀ 𝒱₀ L lv) :=
  [.host (seg0 m), .region (reg0 m Rel hbody), .host (seg1 m Rel)]

/-- The launch element: the pipeline's, at every staging cell. -/
def u₀ : UR sig nD τ := initOf (Pipeline.cells (Pipeline.pin (pcfgs (F := F)) adm) cellOf_inj) (Pipeline.launchToks (Pipeline.pin (pcfgs (F := F)) adm) cellOf_inj)

/-- What a final state says, per core: the result array held SOME contents the write-backs may have left, the program's
    result is the last reshape of it, and the three arguments are what the two host stretches made of them. -/
def QY (c : Dev nD) (s : MemSt nD τ sig (Elt F)) : Prop :=
  ∃ F2 : Buf (Elt F) ((c : Thread nD τ).loc main_v2), (rdats m Rel 0 c).ArrAt 4 cfg0.N F2
    ∧ ReadsOf c (StableHlo.after hostOps1 (V1 m c F2)) s

set_option backward.isDefEq.respectTransparency.types false in
/-- At the compiled mesh, for any float values, from any memory with zero counters: every weakly fair execution of
    @main terminates, nothing faulting, and every final state is as `QY` says on every core. -/
theorem run_main (hbody : ∀ c, (rdats m Rel 0 c).BodyObligation (defs₀ (F := F)) 𝒱₀ () Set.univ) :
    θ_run defs (onTc (τ := τ) (main (F := F))) (s₀ m ρ) (fun r => ∀ c : Dev nD, QY m Rel c r.2) :=
  Pipeline.RDat.θ_run_regions_kit (pcfgs (F := F)) adm (rdats m Rel) () cellOf_inj EP defs₀ 𝒱₀ L lv m ρ main (segs m Rel hbody)
    (fun c Q => by rw [main_chain, Pipeline.RDat.Seg.run_eq_chain]; exact .rfl)
    (by simp only [Pipeline.RDat.Seg.pipes_host, Pipeline.RDat.Seg.pipes_region, Pipeline.RDat.Seg.pipes_nil]; decide)
    (O₀ := 0) (hL := fun _ _ => rfl) (G := fun _ => iprop(emp)) (u₀ := u₀ (F := F))
    (hu₀ := by
      rw [ownU_emb₁]; unfold u₀
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ Rw c))
    (Tₙ := fun c => iprop(∃ F2 : Buf (Elt F) ((c : Thread nD τ).loc main_v2), ⌜(rdats m Rel 0 c).ArrAt 4 cfg0.N F2⌝
      ∗ StableHlo.held (c : Thread nD τ) ucRefs (StableHlo.after hostOps1 (V1 m c F2))))
    (hch := ⟨fun _ => .rfl, fun _ => .rfl, fun _ => .rfl, fun c => by
      show Tend m Rel c ⊢ _
      iintro ⟨%F2, %h, Hh, HR⟩
      isplitl [Hh]
      · iexists F2
        isplitr; · ipureintro; exact h
        iexact Hh
      · iexact HR⟩)
    (hinit := by
      refine Pipeline.initEach L lv fun c => ?_
      rw [held_ucRefs]
      iintro ⟨⟨Hh, -, HO, -, -, -⟩, -⟩
      imodintro
      isplitl [Hh]; · iexact Hh
      iexists ∅; iexact HO)
    (QY := fun c s => QY m Rel c s)
    (hfin := fun c s' => by
      iintro ⟨⟨%F2, %h, Hh⟩, HSI⟩
      ihave Hr := (read_held c (StableHlo.after hostOps1 (V1 m c F2)) s') $$ [Hh HSI]
      · isplitl [Hh] <;> iassumption
      icases Hr with ⟨%e, HSI⟩
      imodintro
      isplitr
      · ipureintro
        exact ⟨F2, h, e⟩
      iexact HSI)
    (hQ := fun _ h => h)

end Cert.Kernel.Run

end
-- ==== Proof.Spec.lean ====
/-
  The function both programs compute, on the extended reals: the vocabulary-head projection
      logits(r, v) = Σ_k x(r, k) · W(v, k) + b(v),
  stated over the [256, 1024] flattening of the activations, the [100000, 1024] weights and the [1, 100000]
  bias row, with the contraction written as the kernel takes it: the sum over the low half of the feature axis
  plus the sum over the high half. Splitting a finite sum over its index range uses only that addition on the
  extended reals is commutative and associative, so no finiteness of the inputs is needed anywhere.
-/
import Mathlib.Data.EReal.Basic
import Mathlib.Algebra.BigOperators.Fin
import Idealize.ShloMosaic.Lib.ValueIdx

noncomputable section

namespace Cert.Spec

open Idealize.ShloMosaic Idealize.ShloMosaic.ValueIdx

/-- Feature index k of the low half, k < 512, as an index of the whole feature axis. -/
abbrev lo (k : Fin 512) : Fin 1024 := ⟨k.val, by omega⟩
/-- Feature index 512 + k of the high half. -/
abbrev hi (k : Fin 512) : Fin 1024 := ⟨512 + k.val, by omega⟩

/-- A sum over the 1024 features is the sum over the low half plus the sum over the high half. -/
theorem sum_halves {M : Type*} [AddCommMonoid M] (f : Fin 1024 → M) :
    ∑ k : Fin 1024, f k = (∑ k : Fin 512, f (lo k)) + ∑ k : Fin 512, f (hi k) := by
  have h := Fin.sum_univ_add (a := 512) (b := 512) (fun k : Fin (512 + 512) => f ⟨k.val, by omega⟩)
  refine (Finset.sum_congr rfl fun k _ => ?_).trans (h.trans ?_)
  · rfl
  · refine congrArg₂ (· + ·) (Finset.sum_congr rfl fun k _ => ?_) (Finset.sum_congr rfl fun k _ => ?_)
    · rfl
    · show f ⟨512 + k.val, _⟩ = f (hi k); rfl

/-- The projection over the flattened activations: entry (r, v) of the [256, 100000] result. -/
def logits2 (x2 : (⟨2, ![256, 1024]⟩ : Shape).Idx → EReal) (W : (⟨2, ![100000, 1024]⟩ : Shape).Idx → EReal)
    (b2 : (⟨2, ![1, 100000]⟩ : Shape).Idx → EReal) (r : Fin 256) (v : Fin 100000) : EReal :=
  ((∑ k : Fin 512, x2 (ix2 r (lo k)) * W (ix2 v (lo k))) + ∑ k : Fin 512, x2 (ix2 r (hi k)) * W (ix2 v (hi k)))
    + b2 (ix2 (0 : Fin 1) v)

end Cert.Spec

end
-- ==== Proof.BodyK.lean ====
/-
  The kernel body as a separation-logic triple, for any float instance.

  One grid step reads the two column halves of the activation block, the two weight half-blocks and the bias
  block, and overwrites the output block with one value computed from those five. The triple below says so for
  arbitrary buffers: the four input blocks are handed back unchanged and the output block ends holding that value,
  whatever it held before.
-/
import proofs.«145559_g35098472743185_cont_8to1_b_329_11_alg».proof.Proof.Gen.Kernel.Skeleton
import proofs.«145559_g35098472743185_cont_8to1_b_329_11_alg».proof.Proof.Gen.Kernel.Launch
import proofs.«145559_g35098472743185_cont_8to1_b_329_11_alg».proof.Proof.Gen.Kernel.Points
import proofs.«145559_g35098472743185_cont_8to1_b_329_11_alg».proof.Proof.Spec
import Idealize.ShloMosaic.Lib.Pipeline.Kit
import Idealize.ShloMosaic.Lib.Tactic

noncomputable section

namespace Cert.Kernel.Body

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body runs under no variants. -/
abbrev 𝒱₀ : Variants := Variants.none

/-- Columns 0‥511 of a [256, 1024] block: entry (r, k) is entry (r, k) of the block. -/
def xlo (X0 : S256x1024.Idx → Elt F .f32) : Vec F S256x512 .f32 :=
  fun x => X0 ((Rect.unit (s := S256x1024) ![0, 0] S256x512.size inb_S256x1024_S256x512_0_0).toLoadRect.idx x)

/-- Columns 512‥1023 of a [256, 1024] block: entry (r, k) is entry (r, 512 + k) of the block. -/
def xhi (X0 : S256x1024.Idx → Elt F .f32) : Vec F S256x512 .f32 :=
  fun x => X0 ((Rect.unit (s := S256x1024) ![0, 512] S256x512.size inb_S256x1024_S256x512_0_512).toLoadRect.idx x)

theorem xlo_apply (X0 : S256x1024.Idx → Elt F .f32) (r : Fin 256) (k : Fin 512) :
    xlo X0 (ValueIdx.ix2 r k) = X0 (ValueIdx.ix2 r (Cert.Spec.lo k)) := by
  unfold xlo
  refine congrArg X0 (funext fun a => Fin.ext ?_)
  match a with
  | ⟨0, _⟩ => show 0 + 1 * r.val = r.val; omega
  | ⟨1, _⟩ => show 0 + 1 * k.val = k.val; omega

theorem xhi_apply (X0 : S256x1024.Idx → Elt F .f32) (r : Fin 256) (k : Fin 512) :
    xhi X0 (ValueIdx.ix2 r k) = X0 (ValueIdx.ix2 r (Cert.Spec.hi k)) := by
  unfold xhi
  refine congrArg X0 (funext fun a => Fin.ext ?_)
  match a with
  | ⟨0, _⟩ => show 0 + 1 * r.val = r.val; omega
  | ⟨1, _⟩ => show 512 + 1 * k.val = 512 + k.val; omega

/-- A load at zero offsets and the view's own sizes reads what the view reads. -/
theorem readAt_zero {sig' : RefSig} {κ : Kind} {sp : Space} {S : Shape} {e : EltTy} {Val : EltTy → Type}
    (v : View sig' κ sp S e) {off : Fin S.rank → Nat} (h : off = fun _ => 0)
    (inb : ∀ a, off a + S.size a ≤ S.size a) (f : v.ty.Contents Val) :
    v.readAt Val (Rect.unit off S.size inb).toLoadRect f = v.read Val f := by
  subst h; funext x
  show v.read Val f ((Rect.whole S).emb x) = v.read Val f x
  rw [Rect.emb_whole_apply]

/-- An unmasked store at zero offsets and the view's own sizes leaves the view reading the payload. -/
theorem read_write_zero {sig' : RefSig} {κ : Kind} {sp : Space} {S : Shape} {e : EltTy} {Val : EltTy → Type}
    (v : View sig' κ sp S e) {off : Fin S.rank → Nat} (h : off = fun _ => 0)
    (inb : ∀ a, off a + S.size a ≤ S.size a) (f : v.ty.Contents Val) (w : S.Idx → Val e) :
    v.read Val ((v.slice (Rect.unit off S.size inb)).write Val f w Finset.univ) = w := by
  subst h; funext x
  have hx := View.read_slice_write_emb (v := v) (Rect.whole S) f w (M := Finset.univ) (x := x) (Finset.mem_univ _)
  rwa [Rect.emb_whole_apply] at hx

/-- The body on any five memrefs of the blocks' shapes, each owned in full: the two loads of the activation block
    read its column halves, the loads of the weight, bias and output blocks read them whole, and the one unmasked
    store covers the output block, which therefore ends reading the stored value; nothing else is written. Stated
    over arbitrary memrefs, so that one proof serves every choice of buffers. -/
theorem body_at (c : Dev nD) (E : Set ℕ) (i : grid0.Coords)
    (m0 : Memref sig .tc .vmem S256x1024 .f32) (h0 : m0.IsWhole)
    (m1 : Memref sig .tc .vmem S3072x512 .f32) (h1 : m1.IsWhole)
    (m2 : Memref sig .tc .vmem S3072x512 .f32) (h2 : m2.IsWhole)
    (m3 : Memref sig .tc .vmem S1x3072 .f32) (h3 : m3.IsWhole)
    (m4 : Memref sig .tc .vmem S256x3072 .f32) (h4 : m4.IsWhole)
    (X0 : S256x1024.Idx → Elt F .f32) (X1 X2 : S3072x512.Idx → Elt F .f32) (X3 : S1x3072.Idx → Elt F .f32)
    (X4 : S256x3072.Idx → Elt F .f32) (K : PUnit → sProp 𝕄) :
    iprop((owns (c : Thread nD τ) m0 fullShare X0 ∗ owns (c : Thread nD τ) m1 fullShare X1
            ∗ owns (c : Thread nD τ) m2 fullShare X2 ∗ owns (c : Thread nD τ) m3 fullShare X3
            ∗ owns (c : Thread nD τ) m4 fullShare X4)
          ∗ (iprop(owns (c : Thread nD τ) m0 fullShare X0 ∗ owns (c : Thread nD τ) m1 fullShare X1
                  ∗ owns (c : Thread nD τ) m2 fullShare X2 ∗ owns (c : Thread nD τ) m3 fullShare X3
                  ∗ owns (c : Thread nD τ) m4 fullShare (Gen.k0_pay1 (xlo X0) (xhi X0) X1 X2 X3)) -∗ K ⟨⟩))
      ⊢ wp frame (wpE (defs₀ (F := F)) 𝒱₀ c none) E (cc0__proj_kernel i m0 h0 m1 h1 m2 h2 m3 h3 m4 h4) K := by
  simp only [cc0__proj_kernel_eq_skeleton]; unfold cc0__proj_kernel_skel
  simp only [Prog.lift, Prog.bind_op, Prog.bind_ret]
  unfold owns
  iintro ⟨⟨⟨%f0, %hf0, H0⟩, ⟨%f1, %hf1, H1⟩, ⟨%f2, %hf2, H2⟩, ⟨%f3, %hf3, H3⟩, ⟨%f4, %hf4, H4⟩⟩, Hk⟩
  sl_steps
  iapply Hk
  -- what each load read, in terms of what its memref reads: a rectangle at zero offsets of the memref's own sizes
  -- reads everything, and the two rectangles of the activation block read its column halves by definition
  have hz : (![0, 0] : Fin 2 → Nat) = fun _ => 0 := funext fun a => by fin_cases a <;> rfl
  have e0 : View.readAt (Elt F) m0.view (Rect.unit (s := S256x1024) ![0, 0] S256x512.size inb_S256x1024_S256x512_0_0).toLoadRect f0
      = xlo X0 := by rw [← hf0]; rfl
  have e0' : View.readAt (Elt F) m0.view (Rect.unit (s := S256x1024) ![0, 512] S256x512.size inb_S256x1024_S256x512_0_512).toLoadRect f0
      = xhi X0 := by rw [← hf0]; rfl
  have e1 : View.readAt (Elt F) m1.view (Rect.unit (s := S3072x512) ![0, 0] S3072x512.size inb_S3072x512_S3072x512_0_0).toLoadRect f1
      = X1 := (readAt_zero m1.view hz _ f1).trans hf1
  have e2 : View.readAt (Elt F) m2.view (Rect.unit (s := S3072x512) ![0, 0] S3072x512.size inb_S3072x512_S3072x512_0_0).toLoadRect f2
      = X2 := (readAt_zero m2.view hz _ f2).trans hf2
  have e3 : View.readAt (Elt F) m3.view (Rect.unit (s := S1x3072) ![0, 0] S1x3072.size inb_S1x3072_S1x3072_0_0).toLoadRect f3
      = X3 := (readAt_zero m3.view hz _ f3).trans hf3
  rw [e0, e0', e1, e2, e3]
  -- the four inputs are held at the contents they came with; the output at its contents overwritten by the store,
  -- through which the memref reads exactly the stored value
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  · iexists View.write (Elt F) (m4.access (Rect.unit (s := S256x3072) ![0, 0] S256x3072.size inb_S256x3072_S256x3072_0_0)) f4
      (k0_pay1 (xlo X0) (xhi X0) X1 X2 X3) Finset.univ
    isplitr; · ipureintro; exact read_write_zero m4.view hz _ f4 _
    iexact H4

/-- The body on the staging buffers of any slots: the activation, weight and bias blocks are handed back as they
    were, and the output block ends holding the body's value of them, whatever it held. -/
theorem sound_body (c : Dev nD) (E : Set ℕ) (i : grid0.Coords) (s0 : Fin 1) (s1 s2 s3 s4 : Fin 2)
    (X0 : S256x1024.Idx → Elt F .f32) (X1 X2 : S3072x512.Idx → Elt F .f32) (X3 : S1x3072.Idx → Elt F .f32)
    (X4 : S256x3072.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4)
          ∗ (iprop(owns (c : Thread nD τ) (stage0_0 s0) fullShare X0 ∗ owns (c : Thread nD τ) (stage0_1 s1) fullShare X1
                  ∗ owns (c : Thread nD τ) (stage0_2 s2) fullShare X2 ∗ owns (c : Thread nD τ) (stage0_3 s3) fullShare X3
                  ∗ owns (c : Thread nD τ) (stage0_4 s4) fullShare (Gen.k0_pay1 (xlo X0) (xhi X0) X1 X2 X3)) -∗ K ⟨⟩))
      ⊢ wp frame (wpE (defs₀ (F := F)) 𝒱₀ c none) E
          (cc0__proj_kernel i (stage0_0 s0) (hstage0_0 s0) (stage0_1 s1) (hstage0_1 s1) (stage0_2 s2) (hstage0_2 s2)
            (stage0_3 s3) (hstage0_3 s3) (stage0_4 s4) (hstage0_4 s4)) K :=
  body_at c E i (stage0_0 s0) (hstage0_0 s0) (stage0_1 s1) (hstage0_1 s1) (stage0_2 s2) (hstage0_2 s2)
    (stage0_3 s3) (hstage0_3 s3) (stage0_4 s4) (hstage0_4 s4) X0 X1 X2 X3 X4 K

/-- info: 'Cert.Kernel.Body.sound_body' depends on axioms: [propext, Classical.choice, Quot.sound] -/
#guard_msgs in #print axioms sound_body

end Cert.Kernel.Body

end
-- ==== Proof.ObligationK.lean ====
/-
  The region's body obligation, from the body's triple.

  At every grid point the body is handed the five current staging buffers knowing of each only what the schedule
  allows: the activations' buffer holds the whole activation array (fetched once, at the first point, and left as
  found ever since); the weight halves' and the bias' buffers were just fetched, so each holds its block on the
  part the transfer moved and arbitrary contents elsewhere; the result's buffer holds anything. The body hands the
  four inputs back as found and leaves in the result's buffer its value of the four, which is in the caller's
  relation by the caller's hypothesis.
-/
import proofs.«145559_g35098472743185_cont_8to1_b_329_11_alg».proof.Proof.DataK
import proofs.«145559_g35098472743185_cont_8to1_b_329_11_alg».proof.Proof.BodyK

noncomputable section

namespace Cert.Kernel.Run

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (Rel : OutRel F)

/-- The activations are fetched at the first point and at no other. -/
theorem fetch_0_iff (t : Fin cfg0.N) : (cfg0.win 0).fetch t = true ↔ t.val = 0 := by
  rw [fetch0_0 t]
  have h : t.val < 33 := lt_of_lt_of_eq t.isLt N_0
  omega

/-- The activations' block is the whole array and no transfer of it is cut: a fetch fills the staging buffer with
    the array, whatever the buffer held. -/
theorem fetched_0 (c : Dev nD) (t : Fin cfg0.N) (d : (cfg0.win 0).block.Idx → Elt F (cfg0.win 0).elt) :
    (rdats m Rel 0 c).fetched 0 t d = fun j => V m c main_v0 j := by
  funext j
  have hm : (cfg0.win 0).moved (cfg0.grid.coords t) j = true :=
    ((cfg0.win 0).moved_iff _ j).mpr fun a => (j a).isLt
  unfold RDat.fetched Window.fill; rw [dif_pos hm]
  unfold RDat.blockOf
  rw [View.read_apply]
  refine (cast_eq _ _).trans ?_
  have hi : ∀ a, (cfg0.win 0).index t a = 0 := fun a => by
    match a with
    | ⟨0, _⟩ => rfl
    | ⟨1, _⟩ => rfl
  refine congrArg (V m c main_v0) (funext fun a => Fin.ext ?_)
  show (cfg0.win 0).index t a * (cfg0.win 0).size a + 1 * (j a).val = (j a).val
  rw [hi a]; omega

/-- The activations are an input: their buffer is never written back. -/
theorem flush_0 (t : Fin cfg0.N) : (cfg0.win 0).flush t = false := by
  unfold Window.flush; exact Bool.false_and _

/-- What the body finds in the activations' buffer, at any point, is the activation array as the region found it:
    the first point fetches it, and from each point to the next the body leaves the buffer as found while nothing
    fetches into it or writes it back. -/
theorem finds0 (c : Dev nD) (t : Fin cfg0.N) (Y : (cfg0.win 0).block.Idx → Elt F (cfg0.win 0).elt)
    (h : (rdats m Rel 0 c).Finds 0 t Y) : Y = fun j => V m c main_v0 j := by
  obtain ⟨n, hn⟩ := t
  induction n generalizing Y with
  | zero =>
    obtain ⟨d, rfl⟩ := ((rdats m Rel 0 c).finds_of_fetch ((fetch_0_iff _).mpr rfl) Y).mp h
    exact fetched_0 m Rel c _ d
  | succ n ih =>
    have hf : (cfg0.win 0).fetch ⟨n + 1, hn⟩ = false := by
      cases hb : (cfg0.win 0).fetch ⟨n + 1, hn⟩
      · rfl
      · exact absurd ((fetch_0_iff _).mp hb) (Nat.succ_ne_zero n)
    rcases ((rdats m Rel 0 c).finds_of_pos hf (Nat.succ_ne_zero n) Y).mp h with hfl | ⟨Y', hY', haft⟩
    · rw [flush_0] at hfl; exact absurd hfl Bool.false_ne_true
    · exact (show Y = Y' from haft).trans (ih Y' (Nat.lt_of_succ_lt hn) hY')

/-- The weight halves and the bias are fetched at every point: what the body finds in their buffers is the block
    on the part the transfer moved, and some contents elsewhere. -/
theorem finds1 (c : Dev nD) (t : Fin cfg0.N) (Y : (cfg0.win 1).block.Idx → Elt F (cfg0.win 1).elt)
    (h : (rdats m Rel 0 c).Finds 1 t Y) : ∃ d, Y = (rdats m Rel 0 c).fetched 1 t d :=
  ((rdats m Rel 0 c).finds_of_fetch (fetch0_1 t) Y).mp h
theorem finds2 (c : Dev nD) (t : Fin cfg0.N) (Y : (cfg0.win 2).block.Idx → Elt F (cfg0.win 2).elt)
    (h : (rdats m Rel 0 c).Finds 2 t Y) : ∃ d, Y = (rdats m Rel 0 c).fetched 2 t d :=
  ((rdats m Rel 0 c).finds_of_fetch (fetch0_2 t) Y).mp h
theorem finds3 (c : Dev nD) (t : Fin cfg0.N) (Y : (cfg0.win 3).block.Idx → Elt F (cfg0.win 3).elt)
    (h : (rdats m Rel 0 c).Finds 3 t Y) : ∃ d, Y = (rdats m Rel 0 c).fetched 3 t d :=
  ((rdats m Rel 0 c).finds_of_fetch (fetch0_3 t) Y).mp h

/-- The body obligation, given that the caller's relation holds of the body's value of the activation array and of
    any three just-fetched buffers: at every point, whatever the five buffers may hold by the schedule, the body
    runs, hands the four inputs back as found and leaves the result's buffer in the relation. -/
theorem body_obligation
    (hRel : ∀ (c : Dev nD) (t : Fin cfg0.N) (d1 d2 : S3072x512.Idx → Elt F .f32) (d3 : S1x3072.Idx → Elt F .f32),
      Rel c t (Gen.k0_pay1 (Body.xlo (fun j => V m c main_v0 j)) (Body.xhi (fun j => V m c main_v0 j))
        ((rdats m Rel 0 c).fetched 1 t d1) ((rdats m Rel 0 c).fetched 2 t d2) ((rdats m Rel 0 c).fetched 3 t d3)))
    (c : Dev nD) : (rdats m Rel 0 c).BodyObligation (defs₀ (F := F)) 𝒱₀ () Set.univ := by
  intro t Y hY
  have h0 := finds0 m Rel c t (Y 0) (hY 0)
  obtain ⟨d1, h1⟩ := finds1 m Rel c t (Y 1) (hY 1)
  obtain ⟨d2, h2⟩ := finds2 m Rel c t (Y 2) (hY 2)
  obtain ⟨d3, h3⟩ := finds3 m Rel c t (Y 3) (hY 3)
  have hR : Rel c t (Gen.k0_pay1 (Body.xlo (Y 0)) (Body.xhi (Y 0)) (Y 1) (Y 2) (Y 3)) := by
    rw [h0, h1, h2, h3]; exact hRel c t d1 d2 d3
  rw [bigSep_W0, bigSep_W0]
  rw [show (rdats m Rel 0 c).Φ t.succ = (rdats m Rel 0 c).Φ t.castSucc from rfl,
    show (rdats m Rel 0 c).owesAt () t.succ = (rdats m Rel 0 c).owesAt () t.castSucc from rfl]
  iintro ⟨HΦ, Ho, H0, H1, H2, H3, H4⟩
  iapply (Body.body_at (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (Y 0) (Y 1) (Y 2) (Y 3) (Y 4) _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  isplitl [H0]
  · iexists Y 0; isplitr; · ipureintro; exact rfl
    iexact H0
  isplitl [H1]
  · iexists Y 1; isplitr; · ipureintro; exact rfl
    iexact H1
  isplitl [H2]
  · iexists Y 2; isplitr; · ipureintro; exact rfl
    iexact H2
  isplitl [H3]
  · iexists Y 3; isplitr; · ipureintro; exact rfl
    iexact H3
  · iexists Gen.k0_pay1 (Body.xlo (Y 0)) (Body.xhi (Y 0)) (Y 1) (Y 2) (Y 3); isplitr; · ipureintro; exact hR
    iexact H4

/-- info: 'Cert.Kernel.Run.body_obligation' depends on axioms: [propext, Classical.choice, Quot.sound] -/
#guard_msgs in #print axioms body_obligation

end Cert.Kernel.Run

end
-- ==== Proof.HostK.lean ====
/-
  The host's reshapes around the kernel, read at an index. Before the kernel the activations [32, 8, 1024] are
  flattened to [256, 1024] (row r is batch r / 8, position r % 8) and the bias [100000] becomes the one row
  [1, 100000]; after it the result [256, 100000] is unflattened to [32, 8, 100000] (entry (i, j) is row 8 i + j).
  A reshape keeps the row-major position of every element, and every other buffer keeps what it held.
-/
import proofs.«145559_g35098472743185_cont_8to1_b_329_11_alg».proof.Proof.Gen.Kernel.Launch
import Idealize.ShloMosaic.Lib.StableHlo.Run
import Idealize.ShloMosaic.Lib.Pipeline.Value
import Idealize.ShloMosaic.Lib.ValueIdx
import Idealize.ShloMosaic.Lib.ValueLayout

noncomputable section

namespace Cert.Kernel.HostReads

open Idealize.ShloMosaic Idealize.ShloMosaic.ValueIdx Cert.Kernel Cert.Kernel.Gen

variable {F : FTy → Type} [FloatOps F]

/-! ## The two reshapes of rank 3 and rank 2, at an index -/

theorem div8_lt (r : Fin 256) : r.val / 8 < 32 := by omega
theorem mod8_lt (r : Fin 256) : r.val % 8 < 8 := by omega
theorem row_lt (i : Fin 32) (j : Fin 8) : 8 * i.val + j.val < 256 := by omega

/-- [32, 8, 1024] flattened to [256, 1024]: row r holds batch r / 8, position r % 8. -/
theorem flatten_apply {α : Type} (x : S32x8x1024.Idx → α) (h : S32x8x1024.ShapeCasts S256x1024) (r : Fin 256) (k : Fin 1024) :
    shapeCast S256x1024 x h (ix2 r k) = x (ix3 ⟨r.val / 8, div8_lt r⟩ ⟨r.val % 8, mod8_lt r⟩ k) :=
  shapeCast_apply x h _ _ (by
    rw [Shape.rowMajor_val_three, Shape.rowMajor_val_two]
    show (r.val / 8 * 8 + r.val % 8) * 1024 + k.val = r.val * 1024 + k.val
    rw [Nat.div_add_mod' r.val 8])

/-- [256, 100000] unflattened to [32, 8, 100000]: entry (i, j) holds row 8 i + j. -/
theorem unflatten_apply {α : Type} (y : S256x100000.Idx → α) (h : S256x100000.ShapeCasts S32x8x100000) (i : Fin 32) (j : Fin 8)
    (v : Fin 100000) : shapeCast S32x8x100000 y h (ix3 i j v) = y (ix2 ⟨8 * i.val + j.val, row_lt i j⟩ v) :=
  shapeCast_apply y h _ _ (by
    rw [Shape.rowMajor_val_three, Shape.rowMajor_val_two]
    show (8 * i.val + j.val) * 100000 + v.val = (i.val * 8 + j.val) * 100000 + v.val
    rw [Nat.mul_comm 8 i.val])

/-! ## The buffers after the operations before the kernel -/

/-- The flattened activations. -/
theorem after0_v0 (W : Valuation τ sig (Elt F)) (r : Fin 256) (k : Fin 1024) :
    (StableHlo.after (hostOps0 (F := F)) W (Proc.devRef .tc main_v0) : S256x1024.Idx → Elt F .f32) (ix2 r k)
      = (W (Proc.devRef .tc main_arg0) : S32x8x1024.Idx → Elt F .f32) (ix3 ⟨r.val / 8, div8_lt r⟩ ⟨r.val % 8, mod8_lt r⟩ k) := by
  have e : (StableHlo.after (hostOps0 (F := F)) W (Proc.devRef .tc main_v0) : S256x1024.Idx → Elt F .f32)
      = shapeCast S256x1024 (W (Proc.devRef .tc main_arg0) : S32x8x1024.Idx → Elt F .f32) shapeCasts_S32x8x1024_S256x1024 := by
    after_results; rfl
  rw [e]
  exact flatten_apply _ _ r k

/-- The bias as a row. -/
theorem after0_v1 (W : Valuation τ sig (Elt F)) (v : Fin 100000) :
    (StableHlo.after (hostOps0 (F := F)) W (Proc.devRef .tc main_v1) : S1x100000.Idx → Elt F .f32) (ix2 (0 : Fin 1) v)
      = (W (Proc.devRef .tc main_arg2) : S100000.Idx → Elt F .f32) (ix1 v) := by
  have e : (StableHlo.after (hostOps0 (F := F)) W (Proc.devRef .tc main_v1) : S1x100000.Idx → Elt F .f32)
      = shapeCast S1x100000 (W (Proc.devRef .tc main_arg2) : S100000.Idx → Elt F .f32) shapeCasts_S100000_S1x100000 := by
    after_results; rfl
  rw [e]
  exact shapeCast_a_1a_apply _ _ (0 : Fin 1) v

/-- A reshape writes its result only. -/
theorem reshape_writes_sub {x y : Ref sig .tc} (he hn hx hy) {L : List (Ref sig .tc)} (h : y ∈ L) :
    (StableHlo.reshape (τ := τ) (Val := Elt F) x y he hn hx hy).writes ⊆ (L.map (Proc.devRef (τ := τ) .tc)).toFinset :=
  Finset.singleton_subset_iff.mpr (List.mem_toFinset.mpr (List.mem_map_of_mem h))

/-- The operations before the kernel write the flattened activations and the bias row only. -/
theorem after0_keep (W : Valuation τ sig (Elt F)) {b : Ref sig .tc} (h0 : b ≠ main_v0) (h1 : b ≠ main_v1) :
    StableHlo.after (hostOps0 (F := F)) W (Proc.devRef .tc b) = W (Proc.devRef .tc b) :=
  StableHlo.after_of_writes_sub (W := [main_v0, main_v1]) _ W
    ⟨reshape_writes_sub _ _ _ _ List.mem_cons_self, reshape_writes_sub _ _ _ _ (List.mem_cons_of_mem _ List.mem_cons_self)⟩
    (by simp only [List.mem_cons, List.not_mem_nil, or_false, not_or]; exact ⟨h0, h1⟩)

theorem after0_arg0 (W : Valuation τ sig (Elt F)) : StableHlo.after (hostOps0 (F := F)) W (Proc.devRef .tc main_arg0) = W (Proc.devRef .tc main_arg0) :=
  after0_keep W (by decide) (by decide)
theorem after0_arg1 (W : Valuation τ sig (Elt F)) : StableHlo.after (hostOps0 (F := F)) W (Proc.devRef .tc main_arg1) = W (Proc.devRef .tc main_arg1) :=
  after0_keep W (by decide) (by decide)
theorem after0_arg2 (W : Valuation τ sig (Elt F)) : StableHlo.after (hostOps0 (F := F)) W (Proc.devRef .tc main_arg2) = W (Proc.devRef .tc main_arg2) :=
  after0_keep W (by decide) (by decide)
theorem after0_v2 (W : Valuation τ sig (Elt F)) : StableHlo.after (hostOps0 (F := F)) W (Proc.devRef .tc main_v2) = W (Proc.devRef .tc main_v2) :=
  after0_keep W (by decide) (by decide)
theorem after0_v3 (W : Valuation τ sig (Elt F)) : StableHlo.after (hostOps0 (F := F)) W (Proc.devRef .tc main_v3) = W (Proc.devRef .tc main_v3) :=
  after0_keep W (by decide) (by decide)

/-! ## The buffers after the operation after the kernel -/

/-- The unflattened result. -/
theorem after1_v3 (W : Valuation τ sig (Elt F)) (i : Fin 32) (j : Fin 8) (v : Fin 100000) :
    (StableHlo.after (hostOps1 (F := F)) W (Proc.devRef .tc main_v3) : S32x8x100000.Idx → Elt F .f32) (ix3 i j v)
      = (W (Proc.devRef .tc main_v2) : S256x100000.Idx → Elt F .f32) (ix2 ⟨8 * i.val + j.val, row_lt i j⟩ v) := by
  have e : (StableHlo.after (hostOps1 (F := F)) W (Proc.devRef .tc main_v3) : S32x8x100000.Idx → Elt F .f32)
      = shapeCast S32x8x100000 (W (Proc.devRef .tc main_v2) : S256x100000.Idx → Elt F .f32) shapeCasts_S256x100000_S32x8x100000 := by
    after_results; rfl
  rw [e]
  exact unflatten_apply _ _ i j v

/-- The operation after the kernel writes the unflattened result only. -/
theorem after1_keep (W : Valuation τ sig (Elt F)) {b : Ref sig .tc} (h : b ≠ main_v3) :
    StableHlo.after (hostOps1 (F := F)) W (Proc.devRef .tc b) = W (Proc.devRef .tc b) :=
  StableHlo.after_of_writes_sub (W := [main_v3]) _ W (reshape_writes_sub _ _ _ _ List.mem_cons_self)
    (by simp only [List.mem_cons, List.not_mem_nil, or_false]; exact h)

theorem after1_arg0 (W : Valuation τ sig (Elt F)) : StableHlo.after (hostOps1 (F := F)) W (Proc.devRef .tc main_arg0) = W (Proc.devRef .tc main_arg0) :=
  after1_keep W (by decide)
theorem after1_arg1 (W : Valuation τ sig (Elt F)) : StableHlo.after (hostOps1 (F := F)) W (Proc.devRef .tc main_arg1) = W (Proc.devRef .tc main_arg1) :=
  after1_keep W (by decide)
theorem after1_arg2 (W : Valuation τ sig (Elt F)) : StableHlo.after (hostOps1 (F := F)) W (Proc.devRef .tc main_arg2) = W (Proc.devRef .tc main_arg2) :=
  after1_keep W (by decide)

end Cert.Kernel.HostReads

end
-- ==== Proof.FrameK.lean ====
/-
  The kernel program keeps its arguments, at any float instance. Nothing is asked of the result: the relation on
  the result window's staged blocks is the trivial one, so the body's obligation says only that it leaves the four
  input staging buffers as it found them. Neither reshape writes an argument, the region's windows on the
  arguments only read, and the weight array's two half shares are joined again when the region ends.
-/
import proofs.«145559_g35098472743185_cont_8to1_b_329_11_alg».proof.Proof.RunK
import proofs.«145559_g35098472743185_cont_8to1_b_329_11_alg».proof.Proof.ObligationK
import proofs.«145559_g35098472743185_cont_8to1_b_329_11_alg».proof.Proof.HostK

noncomputable section

namespace Cert.Kernel.Run

open Cert.Kernel Cert.Kernel.Gen

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

/-- Nothing is said of the result's staged blocks. -/
abbrev RelAny : OutRel F := fun _ _ _ => True

/-- A buffer that neither reshape writes and that is not the region's result reaches the end as launched. -/
theorem kept_to_end (c : Dev nD) (F2 : Buf (Elt F) ((c : Thread nD τ).loc main_v2)) {b : Ref sig .tc}
    (h0 : b ≠ main_v0) (h1 : b ≠ main_v1) (h2 : b ≠ main_v2) (h3 : b ≠ main_v3) :
    StableHlo.after hostOps1 (V1 m c F2) (Proc.devRef .tc b) = m ((c : Thread nD τ).loc b) := by
  rw [HostReads.after1_keep _ h3, V1_of_ne m c F2 h2, HostReads.after0_keep _ h0 h1]

/-- At the compiled mesh, from any memory with zero counters: every weakly fair execution of @main terminates,
    nothing faulting, with the three argument arrays as they were. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => by
      obtain ⟨F2, -, -, e0, e1, e2⟩ := h c
      exact ⟨e0.trans (kept_to_end m c F2 (by decide) (by decide) (by decide) (by decide)),
        e1.trans (kept_to_end m c F2 (by decide) (by decide) (by decide) (by decide)),
        e2.trans (kept_to_end m c F2 (by decide) (by decide) (by decide) (by decide))⟩)
    (run_main m ρ RelAny (body_obligation m RelAny fun _ _ _ _ _ => trivial))

end Cert.Kernel.Run

end
-- ==== Proof.DataKI.lean ====
/-
  The kernel program's run, for any float instance: @main is two reshapes (the activations to [256, 1024], the
  bias to a [1, 100000] row), one pipelined region over 33 vocabulary blocks of 3072 columns, and a reshape of the
  [256, 100000] result to [32, 8, 100000].

  The region's five windows: the activations (one block, the whole array, fetched once); the weight matrix TWICE,
  as its low and its high 512 feature columns, both windows on the one weight array, which is therefore held at
  two half shares, one per window, and put back together when the region ends; the bias row; the result. The last
  vocabulary block overhangs the arrays' end (33 · 3072 = 101376 > 100000): its transfers move only the part
  inside the array, and what a staging buffer holds past that part is not named by anything.

  So the proof data is relational: of each input window it says that the body leaves the staging buffer as it
  found it; of the result's window it says what the caller of this module chooses (the parameter `Rel`): nothing
  at all for the claim that the program runs and keeps its arguments, the block's part inside the array in closed
  form for the claim about the result's value.
-/
import proofs.«145559_g35098472743185_cont_8to1_b_329_11_alg».proof.Proof.Gen.KernelIdeal.Launch
import proofs.«145559_g35098472743185_cont_8to1_b_329_11_alg».proof.Proof.Gen.KernelIdeal.Points
import Idealize.ShloMosaic.Lib.Pipeline.Regions
import Idealize.ShloMosaic.Lib.Pipeline.Kit

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-- The proof's resource algebra is one copy of the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-! ## The buffers before the region: the two reshapes have run -/

/-- Core `c`'s buffers at launch, -/
abbrev V₀ (c : Dev nD) : Valuation τ sig (Elt F) := fun b => m ((c : Dev nD), b)
/-- and when the region is entered. -/
abbrev V (c : Dev nD) (b : Ref sig .tc) : Buf (Elt F) ((c : Thread nD τ).loc b) := StableHlo.after hostOps0 (V₀ m c) b

/-! ## The proof data -/

/-- What the caller says of the result window's staging buffer after the body at a point. -/
abbrev OutRel (F : FTy → Type) : Type := Dev nD → Fin cfg0.N → (S256x3072.Idx → Elt F .f32) → Prop

/-- The proof data on core `c`: the arrays as the reshapes left them; every input's staging buffer left as found,
    the result's in the caller's relation; no invariant; nothing owed; the weight array's share dealt in halves
    to the two windows on it. -/
def rdats (Rel : OutRel F) (_ : Fin 1) (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => Rel c t X
  Φ _ := iprop(emp)
  q w := match w with
    | ⟨0, _⟩ => fullShare
    | ⟨1, _⟩ => fullShare.left
    | ⟨2, _⟩ => fullShare.right
    | ⟨3, _⟩ => fullShare
    | ⟨4, _⟩ => fullShare
  owed _ := 0

abbrev 𝒱₀ : Variants := Variants.none

end Cert.KernelIdeal.Run

end
-- ==== Proof.RunKI.lean ====
/-
  The launch of the kernel program, for any float instance: @main as its three segments (two reshapes; the pipelined
  region; the reshape of the result) composed by the library's theorem for a program given as a list of segments.
  The weight array, read by two windows, enters the region split into two half shares, one per window, and is put
  back together at the region's exit; the result array leaves the region at SOME contents the write-backs may have
  left, which the last reshape and the final reading carry along as an existential.
-/
import proofs.«145559_g35098472743185_cont_8to1_b_329_11_alg».proof.Proof.DataKI

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unscoped buffers, one by one -/

/-- The TensorCore's unscoped references, as device buffers: the set the host operations run within. -/
def ucRefs : Finset (DevRef τ sig) := (StableHlo.tcRefs τ sig).filter fun b => ¬ b.isScoped

omit [FloatOps F] in
/-- A core's unscoped buffers at a valuation are that set held at it. -/
theorem held_ucRefs (c : Dev nD) (W : Valuation τ sig (Elt F)) :
    (StableHlo.held (c : Thread nD τ) ucRefs W : sProp 𝕄) = unscopedBufs c (fun b => W b) := by
  unfold unscopedBufs StableHlo.held ucRefs StableHlo.tcRefs
  rw [Finset.filter_map, bigSep_map]
  rfl

omit [FloatOps F] in
/-- An operation on TensorCore references touches unscoped ones only: a host operation names no scoped buffer. -/
theorem bufs_sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

omit [FloatOps F] in
/-- The seven unscoped buffers of a core, as a chain: the three arguments, the two reshaped inputs, the region's
    result and the program's. -/
theorem unscopedBufs_chain (c : Dev nD) (W : (b : Ref sig .tc) → Buf (Elt F) ((c : Thread nD τ).loc b)) :
    (unscopedBufs c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_v0) ↦{fullShare} W main_v0)
          ∗ (((c : Thread nD τ).loc main_v1) ↦{fullShare} W main_v1) ∗ (((c : Thread nD τ).loc main_v2) ↦{fullShare} W main_v2)
          ∗ (((c : Thread nD τ).loc main_v3) ↦{fullShare} W main_v3)) := by
  unfold unscopedBufs
  exact bigSep_eq_bigSepL_of_eq [main_arg0, main_arg1, main_arg2, main_v0, main_v1, main_v2, main_v3] (by decide) (by decide) _

/-! ## The pipeline's arrays, one by one -/

variable (Rel : OutRel F)

omit [FloatOps F] in
/-- The five windows' arrays as a chain: the flattened activations, the weight array at its two half shares, the
    bias row, the result. -/
theorem arrays_chain (c : Dev nD) (Fs : (w : Fin cfg0.W) → Buf (Elt F) ((cfg0.win w).arr.view.loc (c : Thread nD τ))) :
    ((rdats m Rel 0 c).arrays Fs : sProp 𝕄)
      = iprop((((c : Thread nD τ).loc main_v0) ↦{fullShare} Fs 0) ∗ (((c : Thread nD τ).loc main_arg1) ↦{fullShare.left} Fs 1)
          ∗ (((c : Thread nD τ).loc main_arg1) ↦{fullShare.right} Fs 2) ∗ (((c : Thread nD τ).loc main_v1) ↦{fullShare} Fs 3)
          ∗ (((c : Thread nD τ).loc main_v2) ↦{fullShare} Fs 4)) := by
  unfold RDat.arrays
  rw [bigSep_W0]
  have e : ∀ (w : Fin cfg0.W) (q : PosShare TreeShare), (rdats m Rel 0 c).share w = q →
      (((cfg0.win w).arr.view.loc (c : Thread nD τ)) ↦[(cfg0.win w).arr.view.set]{(rdats m Rel 0 c).share w} Fs w : sProp 𝕄)
        = (((cfg0.win w).arr.view.loc (c : Thread nD τ)) ↦{q} Fs w) := fun w q h => by
    rw [(arr_whole0 w).set_eq_univ, h]
  rw [e 0 fullShare rfl, e 1 fullShare.left rfl, e 2 fullShare.right rfl, e 3 fullShare rfl, e 4 fullShare rfl]

omit [FloatOps F] in
/-- The same for the arrays after the write-backs below a point, each at some contents it may then hold. -/
theorem arraysAt_chain (c : Dev nD) (n : Nat) :
    ((rdats m Rel 0 c).arraysAt n : sProp 𝕄)
      = iprop((∃ G : Buf (Elt F) ((cfg0.win 0).arr.view.loc (c : Thread nD τ)), ⌜(rdats m Rel 0 c).ArrAt 0 n G⌝ ∗ ((cfg0.win 0).arr.view.loc (c : Thread nD τ)) ↦{fullShare} G)
          ∗ (∃ G : Buf (Elt F) ((cfg0.win 1).arr.view.loc (c : Thread nD τ)), ⌜(rdats m Rel 0 c).ArrAt 1 n G⌝ ∗ ((cfg0.win 1).arr.view.loc (c : Thread nD τ)) ↦{fullShare.left} G)
          ∗ (∃ G : Buf (Elt F) ((cfg0.win 2).arr.view.loc (c : Thread nD τ)), ⌜(rdats m Rel 0 c).ArrAt 2 n G⌝ ∗ ((cfg0.win 2).arr.view.loc (c : Thread nD τ)) ↦{fullShare.right} G)
          ∗ (∃ G : Buf (Elt F) ((cfg0.win 3).arr.view.loc (c : Thread nD τ)), ⌜(rdats m Rel 0 c).ArrAt 3 n G⌝ ∗ ((cfg0.win 3).arr.view.loc (c : Thread nD τ)) ↦{fullShare} G)
          ∗ (∃ G : Buf (Elt F) ((cfg0.win 4).arr.view.loc (c : Thread nD τ)), ⌜(rdats m Rel 0 c).ArrAt 4 n G⌝ ∗ ((cfg0.win 4).arr.view.loc (c : Thread nD τ)) ↦{fullShare} G)) := by
  unfold RDat.arraysAt
  rw [bigSep_W0]
  have e : ∀ (w : Fin cfg0.W) (q : PosShare TreeShare), (rdats m Rel 0 c).share w = q →
      (iprop(∃ G : Buf (Elt F) ((cfg0.win w).arr.view.loc (c : Thread nD τ)), ⌜(rdats m Rel 0 c).ArrAt w n G⌝
          ∗ ((cfg0.win w).arr.view.loc (c : Thread nD τ)) ↦[(cfg0.win w).arr.view.set]{(rdats m Rel 0 c).share w} G) : sProp 𝕄)
        = iprop(∃ G : Buf (Elt F) ((cfg0.win w).arr.view.loc (c : Thread nD τ)), ⌜(rdats m Rel 0 c).ArrAt w n G⌝
          ∗ ((cfg0.win w).arr.view.loc (c : Thread nD τ)) ↦{q} G) := fun w q h => by
    rw [(arr_whole0 w).set_eq_univ, h]
  rw [e 0 fullShare rfl, e 1 fullShare.left rfl, e 2 fullShare.right rfl, e 3 fullShare rfl, e 4 fullShare rfl]

/-! ## @main as segments -/

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through every segment: the core owing nothing. -/
abbrev Rw (c : Dev nD) : sProp 𝕄 := iprop(∃ W, owes (c : Thread nD τ) (0 : CellTallies nD τ sig Unit) W)

/-- A line of this program's host operations, over the unscoped buffers at a valuation. -/
def hostSeg (ops : List (HloOp τ sig (Elt F))) (hsub : ops.Forall fun op => op.bufs ⊆ StableHlo.tcRefs τ sig)
    (hf : ∀ op ∈ ops, op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ ucRefs ops (fun op h => bufs_sub_ucRefs op ((List.forall_iff_forall_mem.mp hsub) op h)) hf W Rw

-- the library's rule for a line of host operations is stated for any thread: unification must unfold plain definitions
set_option backward.isDefEq.respectTransparency.types false in
/-- Its specification, with the thread states spelled out: from the buffers at `W c` it runs to the buffers at what the
    operations make of them. -/
theorem hostSeg_spec (ops : List (HloOp τ sig (Elt F))) (hsub : ops.Forall fun op => op.bufs ⊆ StableHlo.tcRefs τ sig)
    (hf : ∀ op ∈ ops, op.fresh = ∅) (W : Dev nD → Valuation τ sig (Elt F)) (c : Dev nD) {β : Type}
    (k : PUnit → Prog (TpuEff nD τ sig (Elt F) (Pipeline.Sig Λ₀ (Fin 1) fun p => (pcfgs (F := F) p).Adm) .tc) β) (K : β → sProp 𝕄) :
    iprop((iprop(boundary (c : Thread nD τ) ∗ StableHlo.held (c : Thread nD τ) ucRefs (StableHlo.after ops (W c)) ∗ Rw c)
          -∗ wp frame (wpE (Pipeline.defs (pcfgs (F := F)) defs₀) (Variants.lift 𝒱₀) (c : Thread nD τ) none) Set.univ (k ⟨⟩) K)
        ∗ boundary (c : Thread nD τ) ∗ (StableHlo.held (c : Thread nD τ) ucRefs (W c) ∗ Rw c) ∗ levAts L lv)
      ⊢ wp frame (wpE (Pipeline.defs (pcfgs (F := F)) defs₀) (Variants.lift 𝒱₀) (c : Thread nD τ) none) Set.univ (StableHlo.seq ops >>= k) K :=
  (hostSeg ops hsub hf W).run c k K

theorem fresh0 : ∀ op ∈ (hostOps0 : List (HloOp τ sig (Elt F))), op.fresh = ∅ := fun op h => by
  simp only [List.mem_cons, List.mem_nil_iff, or_false] at h
  rcases h with rfl | rfl <;> rfl

theorem fresh1 : ∀ op ∈ (hostOps1 : List (HloOp τ sig (Elt F))), op.fresh = ∅ := fun op h => by
  simp only [List.mem_cons, List.mem_nil_iff, or_false] at h
  rcases h with rfl
  rfl

/-- THE FIRST HOST STRETCH: the two reshapes. -/
def seg0 : Pipeline.HostSeg (Name := ℕ) (U := UR sig nD τ) (pcfgs (F := F)) defs₀ 𝒱₀ L lv :=
  hostSeg hostOps0 hostOps0_sub fresh0 (V₀ m)

/-- The buffers when the region has ended, its result array holding `F2`: the others as the region found them. -/
abbrev V1 (c : Dev nD) (F2 : Buf (Elt F) ((c : Thread nD τ).loc main_v2)) : Valuation τ sig (Elt F) :=
  Function.update (StableHlo.after hostOps0 (V₀ m c)) (Proc.devRef .tc main_v2) F2

omit [FloatOps F] in
/-- Away from the result array they are what the region found, -/
theorem V1_of_ne (c : Dev nD) (F2 : Buf (Elt F) ((c : Thread nD τ).loc main_v2)) {b : Ref sig .tc} (hb : b ≠ main_v2) :
    V1 m c F2 (Proc.devRef .tc b) = StableHlo.after hostOps0 (V₀ m c) (Proc.devRef .tc b) :=
  Function.update_of_ne (StableHlo.devRef_ne_of_ne hb) _ _

omit [FloatOps F] in
/-- and at it, `F2`. -/
theorem V1_v2 (c : Dev nD) (F2 : Buf (Elt F) ((c : Thread nD τ).loc main_v2)) : V1 m c F2 (Proc.devRef .tc main_v2) = F2 :=
  Function.update_self _ _ _

omit [FloatOps F] in
/-- Those buffers, one by one. -/
theorem held_V1_chain (c : Dev nD) (F2 : Buf (Elt F) ((c : Thread nD τ).loc main_v2)) :
    (StableHlo.held (c : Thread nD τ) ucRefs (V1 m c F2) : sProp 𝕄)
      = iprop((((c : Thread nD τ).loc main_arg0) ↦{fullShare} V m c main_arg0) ∗ (((c : Thread nD τ).loc main_arg1) ↦{fullShare} V m c main_arg1)
          ∗ (((c : Thread nD τ).loc main_arg2) ↦{fullShare} V m c main_arg2) ∗ (((c : Thread nD τ).loc main_v0) ↦{fullShare} V m c main_v0)
          ∗ (((c : Thread nD τ).loc main_v1) ↦{fullShare} V m c main_v1) ∗ (((c : Thread nD τ).loc main_v2) ↦{fullShare} F2)
          ∗ (((c : Thread nD τ).loc main_v3) ↦{fullShare} V m c main_v3)) := by
  rw [held_ucRefs, unscopedBufs_chain]
  rw [V1_of_ne m c F2 (b := main_arg0) (by decide), V1_of_ne m c F2 (b := main_arg1) (by decide), V1_of_ne m c F2 (b := main_arg2) (by decide),
    V1_of_ne m c F2 (b := main_v0) (by decide), V1_of_ne m c F2 (b := main_v1) (by decide), V1_of_ne m c F2 (b := main_v3) (by decide), V1_v2]

/-- A memory holds, at the program's result and at its three arguments, what the valuation `W` says. -/
def ReadsOf (c : Dev nD) (W : Valuation τ sig (Elt F)) (s : MemSt nD τ sig (Elt F)) : Prop :=
  s.mem ((c : Thread nD τ).loc main_v3) = W (Proc.devRef .tc main_v3)
    ∧ s.mem ((c : Thread nD τ).loc main_arg0) = W (Proc.devRef .tc main_arg0)
    ∧ s.mem ((c : Thread nD τ).loc main_arg1) = W (Proc.devRef .tc main_arg1)
    ∧ s.mem ((c : Thread nD τ).loc main_arg2) = W (Proc.devRef .tc main_arg2)

omit [FloatOps F] in
/-- The unscoped buffers held beside a state's interpretation say what that state's memory holds there. -/
theorem read_held (c : Dev nD) (W : Valuation τ sig (Elt F)) (s' : Phys nD τ sig (Elt F)) :
    iprop(StableHlo.held (c : Thread nD τ) ucRefs W ∗ SI s') ⊢ (iprop(⌜ReadsOf c W s'.mem⌝ ∗ SI s') : sProp 𝕄) := by
  rw [held_ucRefs, unscopedBufs_chain]
  iintro ⟨⟨H0, H1, H2, -, -, -, Hv3⟩, HSI⟩
  icombine HSI H0 gives %e0
  icombine HSI H1 gives %e1
  icombine HSI H2 gives %e2
  icombine HSI Hv3 gives %e3
  isplitr
  · ipureintro
    exact ⟨Buf.eq_of_forall_mem_univ e3, Buf.eq_of_forall_mem_univ e0, Buf.eq_of_forall_mem_univ e1, Buf.eq_of_forall_mem_univ e2⟩
  iexact HSI

/-- The thread state between the region and the last reshape: the result array at SOME contents the write-backs
    may have left (`ArrAt`), every other unscoped buffer as the region found it. -/
abbrev Tmid (c : Dev nD) : sProp 𝕄 :=
  iprop(∃ F2 : Buf (Elt F) ((c : Thread nD τ).loc main_v2), ⌜(rdats m Rel 0 c).ArrAt 4 cfg0.N F2⌝
    ∗ StableHlo.held (c : Thread nD τ) ucRefs (V1 m c F2) ∗ Rw c)

/-- and after it. -/
abbrev Tend (c : Dev nD) : sProp 𝕄 :=
  iprop(∃ F2 : Buf (Elt F) ((c : Thread nD τ).loc main_v2), ⌜(rdats m Rel 0 c).ArrAt 4 cfg0.N F2⌝
    ∗ StableHlo.held (c : Thread nD τ) ucRefs (StableHlo.after hostOps1 (V1 m c F2)) ∗ Rw c)

-- the library's entry lemmas are stated over the pinned configuration: unification must unfold plain definitions
set_option backward.isDefEq.respectTransparency.types false in
/-- THE REGION: the decided layout, no semaphore of the kernel's own, the body obligation; entered from what the first
    stretch left — the four arrays behind the five windows into the pipeline, the weight array split into its two half
    shares, the other three buffers bypassing —, left with the result array at what the write-backs made of it and the
    weight array's halves joined. -/
def reg0 (hbody : ∀ c, (rdats m Rel 0 c).BodyObligation (defs₀ (F := F)) 𝒱₀ () Set.univ) :
    Pipeline.RDat.RegionSeg (pcfgs (F := F)) adm (rdats m Rel) () defs₀ 𝒱₀ L lv 0 where
  win := winFacts₀0
  block_pos := block_pos0
  stage_whole := stage_whole0
  K := PEmpty
  osem := fun k => k.elim
  ho := Pipeline.OwnSemFacts.none _
  hbody := hbody
  hwaits := Pipeline.RDat.hwaits_of_owed_zero _ _ _ _ L lv 0 fun _ _ => rfl
  pre c := iprop(StableHlo.held (c : Thread nD τ) ucRefs (StableHlo.after hostOps0 (V₀ m c)) ∗ Rw c)
  post c := Tmid m Rel c
  X _ := iprop(emp)
  Y _ := iprop(emp)
  Z c := iprop((((c : Thread nD τ).loc main_arg0) ↦{fullShare} V m c main_arg0) ∗ (((c : Thread nD τ).loc main_arg2) ↦{fullShare} V m c main_arg2)
    ∗ (((c : Thread nD τ).loc main_v3) ↦{fullShare} V m c main_v3))
  hentry c := by
    rw [held_ucRefs, unscopedBufs_chain, arrays_chain]
    iintro ⟨⟨⟨H0, H1, H2, Hv0, Hv1, Hv2, Hv3⟩, HO⟩, -, -⟩
    ihave H1s := (pointsTo_share (PosShare.mem_left_op_right fullShare)).1 $$ H1
    icases H1s with ⟨H1l, H1r⟩
    imodintro
    isplitl [Hv0 H1l H1r Hv1 Hv2]
    · isplitl [Hv0]; · iexact Hv0
      isplitl [H1l]; · iexact H1l
      isplitl [H1r]; · iexact H1r
      isplitl [Hv1]; · iexact Hv1
      iexact Hv2
    isplitr
    · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    isplitl [H0]; · iexact H0
    isplitl [H2]; · iexact H2
    iexact Hv3
  hin c := by
    show _ ⊢ (BI.emp : sProp 𝕄)
    iintro -; iempintro
  hout c := by
    rw [scopedRest0_eq, Pipeline.ownSems0_none]
    iintro -
    isplitr; · iempintro
    isplitr <;> iempintro
  hexit c := by
    rw [arraysAt_chain]
    iintro ⟨⟨⟨%G0, %h0, H0⟩, ⟨%G1, %h1, H1⟩, ⟨%G2, %h2, H2⟩, ⟨%G3, %h3, H3⟩, ⟨%G4, %h4, H4⟩⟩, HO, -, ⟨Ha0, Ha2, Hv3⟩⟩
    rw [RDat.ArrAt_in _ _ rfl] at h0 h1 h2 h3
    subst h0 h1 h2 h3
    imodintro
    iexists G4
    isplitr; · ipureintro; exact h4
    isplitr [HO]
    · iapply (Entails.of_eq (held_V1_chain m c G4).symm)
      isplitl [Ha0]; · iexact Ha0
      isplitl [H1 H2]
      · iapply (pointsTo_share (f := V m c main_arg1) (PosShare.mem_left_op_right fullShare)).2
        isplitl [H1]
        · iexact H1
        · iexact H2
      isplitl [Ha2]; · iexact Ha2
      isplitl [H0]; · iexact H0
      isplitl [H3]; · iexact H3
      isplitl [H4]; · iexact H4
      iexact Hv3
    · unfold Pipeline.RDat.owesAt Pipeline.owesWithin
      icases HO with ⟨%W, -, HO⟩; iexists W; iexact HO

-- as above
set_option backward.isDefEq.respectTransparency.types false in
/-- THE LAST HOST STRETCH: the reshape of the result, whatever the region left in the result array. -/
def seg1 : Pipeline.HostSeg (Name := ℕ) (U := UR sig nD τ) (pcfgs (F := F)) defs₀ 𝒱₀ L lv where
  prog := StableHlo.seq hostOps1
  pre c := Tmid m Rel c
  post c := Tend m Rel c
  run c {β} k K := by
    iintro ⟨Hk, Hbd, ⟨%F2, %h, Hh, HR⟩, Hla⟩
    iapply (hostSeg_spec (F := F) hostOps1 hostOps1_sub fresh1 (fun _ => V1 m c F2) c k K)
    isplitl [Hk]
    · iintro ⟨Hbd, Hh, HR⟩
      iapply Hk
      isplitl [Hbd]; · iexact Hbd
      iexists F2
      isplitr; · ipureintro; exact h
      isplitl [Hh] <;> iassumption
    isplitl [Hbd]; · iexact Hbd
    isplitl [Hh HR]
    · isplitl [Hh] <;> iassumption
    iexact Hla

/-- @main as the list of the three. -/
abbrev segs (hbody : ∀ c, (rdats m Rel 0 c).BodyObligation (defs₀ (F := F)) 𝒱₀ () Set.univ) :
    List (Pipeline.RDat.Seg (pcfgs (F := F)) adm (rdats m Rel) () defs₀ 𝒱₀ L lv) :=
  [.host (seg0 m), .region (reg0 m Rel hbody), .host (seg1 m Rel)]

/-- The launch element: the pipeline's, at every staging cell. -/
def u₀ : UR sig nD τ := initOf (Pipeline.cells (Pipeline.pin (pcfgs (F := F)) adm) cellOf_inj) (Pipeline.launchToks (Pipeline.pin (pcfgs (F := F)) adm) cellOf_inj)

/-- What a final state says, per core: the result array held SOME contents the write-backs may have left, the program's
    result is the last reshape of it, and the three arguments are what the two host stretches made of them. -/
def QY (c : Dev nD) (s : MemSt nD τ sig (Elt F)) : Prop :=
  ∃ F2 : Buf (Elt F) ((c : Thread nD τ).loc main_v2), (rdats m Rel 0 c).ArrAt 4 cfg0.N F2
    ∧ ReadsOf c (StableHlo.after hostOps1 (V1 m c F2)) s

set_option backward.isDefEq.respectTransparency.types false in
/-- At the compiled mesh, for any float values, from any memory with zero counters: every weakly fair execution of
    @main terminates, nothing faulting, and every final state is as `QY` says on every core. -/
theorem run_main (hbody : ∀ c, (rdats m Rel 0 c).BodyObligation (defs₀ (F := F)) 𝒱₀ () Set.univ) :
    θ_run defs (onTc (τ := τ) (main (F := F))) (s₀ m ρ) (fun r => ∀ c : Dev nD, QY m Rel c r.2) :=
  Pipeline.RDat.θ_run_regions_kit (pcfgs (F := F)) adm (rdats m Rel) () cellOf_inj EP defs₀ 𝒱₀ L lv m ρ main (segs m Rel hbody)
    (fun c Q => by rw [main_chain, Pipeline.RDat.Seg.run_eq_chain]; exact .rfl)
    (by simp only [Pipeline.RDat.Seg.pipes_host, Pipeline.RDat.Seg.pipes_region, Pipeline.RDat.Seg.pipes_nil]; decide)
    (O₀ := 0) (hL := fun _ _ => rfl) (G := fun _ => iprop(emp)) (u₀ := u₀ (F := F))
    (hu₀ := by
      rw [ownU_emb₁]; unfold u₀
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ Rw c))
    (Tₙ := fun c => iprop(∃ F2 : Buf (Elt F) ((c : Thread nD τ).loc main_v2), ⌜(rdats m Rel 0 c).ArrAt 4 cfg0.N F2⌝
      ∗ StableHlo.held (c : Thread nD τ) ucRefs (StableHlo.after hostOps1 (V1 m c F2))))
    (hch := ⟨fun _ => .rfl, fun _ => .rfl, fun _ => .rfl, fun c => by
      show Tend m Rel c ⊢ _
      iintro ⟨%F2, %h, Hh, HR⟩
      isplitl [Hh]
      · iexists F2
        isplitr; · ipureintro; exact h
        iexact Hh
      · iexact HR⟩)
    (hinit := by
      refine Pipeline.initEach L lv fun c => ?_
      rw [held_ucRefs]
      iintro ⟨⟨Hh, -, HO, -, -, -⟩, -⟩
      imodintro
      isplitl [Hh]; · iexact Hh
      iexists ∅; iexact HO)
    (QY := fun c s => QY m Rel c s)
    (hfin := fun c s' => by
      iintro ⟨⟨%F2, %h, Hh⟩, HSI⟩
      ihave Hr := (read_held c (StableHlo.after hostOps1 (V1 m c F2)) s') $$ [Hh HSI]
      · isplitl [Hh] <;> iassumption
      icases Hr with ⟨%e, HSI⟩
      imodintro
      isplitr
      · ipureintro
        exact ⟨F2, h, e⟩
      iexact HSI)
    (hQ := fun _ h => h)

end Cert.KernelIdeal.Run

end
-- ==== Proof.BodyKI.lean ====
/-
  The kernel body as a separation-logic triple, for any float instance.

  One grid step reads the two column halves of the activation block, the two weight half-blocks and the bias
  block, and overwrites the output block with one value computed from those five. The triple below says so for
  arbitrary buffers: the four input blocks are handed back unchanged and the output block ends holding that value,
  whatever it held before.
-/
import proofs.«145559_g35098472743185_cont_8to1_b_329_11_alg».proof.Proof.Gen.KernelIdeal.Skeleton
import proofs.«145559_g35098472743185_cont_8to1_b_329_11_alg».proof.Proof.Gen.KernelIdeal.Launch
import proofs.«145559_g35098472743185_cont_8to1_b_329_11_alg».proof.Proof.Gen.KernelIdeal.Points
import proofs.«145559_g35098472743185_cont_8to1_b_329_11_alg».proof.Proof.Spec
import Idealize.ShloMosaic.Lib.Pipeline.Kit
import Idealize.ShloMosaic.Lib.Tactic

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body runs under no variants. -/
abbrev 𝒱₀ : Variants := Variants.none

/-- Columns 0‥511 of a [256, 1024] block: entry (r, k) is entry (r, k) of the block. -/
def xlo (X0 : S256x1024.Idx → Elt F .f32) : Vec F S256x512 .f32 :=
  fun x => X0 ((Rect.unit (s := S256x1024) ![0, 0] S256x512.size inb_S256x1024_S256x512_0_0).toLoadRect.idx x)

/-- Columns 512‥1023 of a [256, 1024] block: entry (r, k) is entry (r, 512 + k) of the block. -/
def xhi (X0 : S256x1024.Idx → Elt F .f32) : Vec F S256x512 .f32 :=
  fun x => X0 ((Rect.unit (s := S256x1024) ![0, 512] S256x512.size inb_S256x1024_S256x512_0_512).toLoadRect.idx x)

theorem xlo_apply (X0 : S256x1024.Idx → Elt F .f32) (r : Fin 256) (k : Fin 512) :
    xlo X0 (ValueIdx.ix2 r k) = X0 (ValueIdx.ix2 r (Cert.Spec.lo k)) := by
  unfold xlo
  refine congrArg X0 (funext fun a => Fin.ext ?_)
  match a with
  | ⟨0, _⟩ => show 0 + 1 * r.val = r.val; omega
  | ⟨1, _⟩ => show 0 + 1 * k.val = k.val; omega

theorem xhi_apply (X0 : S256x1024.Idx → Elt F .f32) (r : Fin 256) (k : Fin 512) :
    xhi X0 (ValueIdx.ix2 r k) = X0 (ValueIdx.ix2 r (Cert.Spec.hi k)) := by
  unfold xhi
  refine congrArg X0 (funext fun a => Fin.ext ?_)
  match a with
  | ⟨0, _⟩ => show 0 + 1 * r.val = r.val; omega
  | ⟨1, _⟩ => show 512 + 1 * k.val = 512 + k.val; omega

/-- A load at zero offsets and the view's own sizes reads what the view reads. -/
theorem readAt_zero {sig' : RefSig} {κ : Kind} {sp : Space} {S : Shape} {e : EltTy} {Val : EltTy → Type}
    (v : View sig' κ sp S e) {off : Fin S.rank → Nat} (h : off = fun _ => 0)
    (inb : ∀ a, off a + S.size a ≤ S.size a) (f : v.ty.Contents Val) :
    v.readAt Val (Rect.unit off S.size inb).toLoadRect f = v.read Val f := by
  subst h; funext x
  show v.read Val f ((Rect.whole S).emb x) = v.read Val f x
  rw [Rect.emb_whole_apply]

/-- An unmasked store at zero offsets and the view's own sizes leaves the view reading the payload. -/
theorem read_write_zero {sig' : RefSig} {κ : Kind} {sp : Space} {S : Shape} {e : EltTy} {Val : EltTy → Type}
    (v : View sig' κ sp S e) {off : Fin S.rank → Nat} (h : off = fun _ => 0)
    (inb : ∀ a, off a + S.size a ≤ S.size a) (f : v.ty.Contents Val) (w : S.Idx → Val e) :
    v.read Val ((v.slice (Rect.unit off S.size inb)).write Val f w Finset.univ) = w := by
  subst h; funext x
  have hx := View.read_slice_write_emb (v := v) (Rect.whole S) f w (M := Finset.univ) (x := x) (Finset.mem_univ _)
  rwa [Rect.emb_whole_apply] at hx

/-- The body on any five memrefs of the blocks' shapes, each owned in full: the two loads of the activation block
    read its column halves, the loads of the weight, bias and output blocks read them whole, and the one unmasked
    store covers the output block, which therefore ends reading the stored value; nothing else is written. Stated
    over arbitrary memrefs, so that one proof serves every choice of buffers. -/
theorem body_at (c : Dev nD) (E : Set ℕ) (i : grid0.Coords)
    (m0 : Memref sig .tc .vmem S256x1024 .f32) (h0 : m0.IsWhole)
    (m1 : Memref sig .tc .vmem S3072x512 .f32) (h1 : m1.IsWhole)
    (m2 : Memref sig .tc .vmem S3072x512 .f32) (h2 : m2.IsWhole)
    (m3 : Memref sig .tc .vmem S1x3072 .f32) (h3 : m3.IsWhole)
    (m4 : Memref sig .tc .vmem S256x3072 .f32) (h4 : m4.IsWhole)
    (X0 : S256x1024.Idx → Elt F .f32) (X1 X2 : S3072x512.Idx → Elt F .f32) (X3 : S1x3072.Idx → Elt F .f32)
    (X4 : S256x3072.Idx → Elt F .f32) (K : PUnit → sProp 𝕄) :
    iprop((owns (c : Thread nD τ) m0 fullShare X0 ∗ owns (c : Thread nD τ) m1 fullShare X1
            ∗ owns (c : Thread nD τ) m2 fullShare X2 ∗ owns (c : Thread nD τ) m3 fullShare X3
            ∗ owns (c : Thread nD τ) m4 fullShare X4)
          ∗ (iprop(owns (c : Thread nD τ) m0 fullShare X0 ∗ owns (c : Thread nD τ) m1 fullShare X1
                  ∗ owns (c : Thread nD τ) m2 fullShare X2 ∗ owns (c : Thread nD τ) m3 fullShare X3
                  ∗ owns (c : Thread nD τ) m4 fullShare (Gen.k0_pay1 (xlo X0) (xhi X0) X1 X2 X3)) -∗ K ⟨⟩))
      ⊢ wp frame (wpE (defs₀ (F := F)) 𝒱₀ c none) E (cc0__proj_kernel i m0 h0 m1 h1 m2 h2 m3 h3 m4 h4) K := by
  simp only [cc0__proj_kernel_eq_skeleton]; unfold cc0__proj_kernel_skel
  simp only [Prog.lift, Prog.bind_op, Prog.bind_ret]
  unfold owns
  iintro ⟨⟨⟨%f0, %hf0, H0⟩, ⟨%f1, %hf1, H1⟩, ⟨%f2, %hf2, H2⟩, ⟨%f3, %hf3, H3⟩, ⟨%f4, %hf4, H4⟩⟩, Hk⟩
  sl_steps
  iapply Hk
  -- what each load read, in terms of what its memref reads: a rectangle at zero offsets of the memref's own sizes
  -- reads everything, and the two rectangles of the activation block read its column halves by definition
  have hz : (![0, 0] : Fin 2 → Nat) = fun _ => 0 := funext fun a => by fin_cases a <;> rfl
  have e0 : View.readAt (Elt F) m0.view (Rect.unit (s := S256x1024) ![0, 0] S256x512.size inb_S256x1024_S256x512_0_0).toLoadRect f0
      = xlo X0 := by rw [← hf0]; rfl
  have e0' : View.readAt (Elt F) m0.view (Rect.unit (s := S256x1024) ![0, 512] S256x512.size inb_S256x1024_S256x512_0_512).toLoadRect f0
      = xhi X0 := by rw [← hf0]; rfl
  have e1 : View.readAt (Elt F) m1.view (Rect.unit (s := S3072x512) ![0, 0] S3072x512.size inb_S3072x512_S3072x512_0_0).toLoadRect f1
      = X1 := (readAt_zero m1.view hz _ f1).trans hf1
  have e2 : View.readAt (Elt F) m2.view (Rect.unit (s := S3072x512) ![0, 0] S3072x512.size inb_S3072x512_S3072x512_0_0).toLoadRect f2
      = X2 := (readAt_zero m2.view hz _ f2).trans hf2
  have e3 : View.readAt (Elt F) m3.view (Rect.unit (s := S1x3072) ![0, 0] S1x3072.size inb_S1x3072_S1x3072_0_0).toLoadRect f3
      = X3 := (readAt_zero m3.view hz _ f3).trans hf3
  rw [e0, e0', e1, e2, e3]
  -- the four inputs are held at the contents they came with; the output at its contents overwritten by the store,
  -- through which the memref reads exactly the stored value
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  · iexists View.write (Elt F) (m4.access (Rect.unit (s := S256x3072) ![0, 0] S256x3072.size inb_S256x3072_S256x3072_0_0)) f4
      (k0_pay1 (xlo X0) (xhi X0) X1 X2 X3) Finset.univ
    isplitr; · ipureintro; exact read_write_zero m4.view hz _ f4 _
    iexact H4

/-- The body on the staging buffers of any slots: the activation, weight and bias blocks are handed back as they
    were, and the output block ends holding the body's value of them, whatever it held. -/
theorem sound_body (c : Dev nD) (E : Set ℕ) (i : grid0.Coords) (s0 : Fin 1) (s1 s2 s3 s4 : Fin 2)
    (X0 : S256x1024.Idx → Elt F .f32) (X1 X2 : S3072x512.Idx → Elt F .f32) (X3 : S1x3072.Idx → Elt F .f32)
    (X4 : S256x3072.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4)
          ∗ (iprop(owns (c : Thread nD τ) (stage0_0 s0) fullShare X0 ∗ owns (c : Thread nD τ) (stage0_1 s1) fullShare X1
                  ∗ owns (c : Thread nD τ) (stage0_2 s2) fullShare X2 ∗ owns (c : Thread nD τ) (stage0_3 s3) fullShare X3
                  ∗ owns (c : Thread nD τ) (stage0_4 s4) fullShare (Gen.k0_pay1 (xlo X0) (xhi X0) X1 X2 X3)) -∗ K ⟨⟩))
      ⊢ wp frame (wpE (defs₀ (F := F)) 𝒱₀ c none) E
          (cc0__proj_kernel i (stage0_0 s0) (hstage0_0 s0) (stage0_1 s1) (hstage0_1 s1) (stage0_2 s2) (hstage0_2 s2)
            (stage0_3 s3) (hstage0_3 s3) (stage0_4 s4) (hstage0_4 s4)) K :=
  body_at c E i (stage0_0 s0) (hstage0_0 s0) (stage0_1 s1) (hstage0_1 s1) (stage0_2 s2) (hstage0_2 s2)
    (stage0_3 s3) (hstage0_3 s3) (stage0_4 s4) (hstage0_4 s4) X0 X1 X2 X3 X4 K

/-- info: 'Cert.KernelIdeal.Body.sound_body' depends on axioms: [propext, Classical.choice, Quot.sound] -/
#guard_msgs in #print axioms sound_body

end Cert.KernelIdeal.Body

end
-- ==== Proof.ObligationKI.lean ====
/-
  The region's body obligation, from the body's triple.

  At every grid point the body is handed the five current staging buffers knowing of each only what the schedule
  allows: the activations' buffer holds the whole activation array (fetched once, at the first point, and left as
  found ever since); the weight halves' and the bias' buffers were just fetched, so each holds its block on the
  part the transfer moved and arbitrary contents elsewhere; the result's buffer holds anything. The body hands the
  four inputs back as found and leaves in the result's buffer its value of the four, which is in the caller's
  relation by the caller's hypothesis.
-/
import proofs.«145559_g35098472743185_cont_8to1_b_329_11_alg».proof.Proof.DataKI
import proofs.«145559_g35098472743185_cont_8to1_b_329_11_alg».proof.Proof.BodyKI

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (Rel : OutRel F)

/-- The activations are fetched at the first point and at no other. -/
theorem fetch_0_iff (t : Fin cfg0.N) : (cfg0.win 0).fetch t = true ↔ t.val = 0 := by
  rw [fetch0_0 t]
  have h : t.val < 33 := lt_of_lt_of_eq t.isLt N_0
  omega

/-- The activations' block is the whole array and no transfer of it is cut: a fetch fills the staging buffer with
    the array, whatever the buffer held. -/
theorem fetched_0 (c : Dev nD) (t : Fin cfg0.N) (d : (cfg0.win 0).block.Idx → Elt F (cfg0.win 0).elt) :
    (rdats m Rel 0 c).fetched 0 t d = fun j => V m c main_v0 j := by
  funext j
  have hm : (cfg0.win 0).moved (cfg0.grid.coords t) j = true :=
    ((cfg0.win 0).moved_iff _ j).mpr fun a => (j a).isLt
  unfold RDat.fetched Window.fill; rw [dif_pos hm]
  unfold RDat.blockOf
  rw [View.read_apply]
  refine (cast_eq _ _).trans ?_
  have hi : ∀ a, (cfg0.win 0).index t a = 0 := fun a => by
    match a with
    | ⟨0, _⟩ => rfl
    | ⟨1, _⟩ => rfl
  refine congrArg (V m c main_v0) (funext fun a => Fin.ext ?_)
  show (cfg0.win 0).index t a * (cfg0.win 0).size a + 1 * (j a).val = (j a).val
  rw [hi a]; omega

/-- The activations are an input: their buffer is never written back. -/
theorem flush_0 (t : Fin cfg0.N) : (cfg0.win 0).flush t = false := by
  unfold Window.flush; exact Bool.false_and _

/-- What the body finds in the activations' buffer, at any point, is the activation array as the region found it:
    the first point fetches it, and from each point to the next the body leaves the buffer as found while nothing
    fetches into it or writes it back. -/
theorem finds0 (c : Dev nD) (t : Fin cfg0.N) (Y : (cfg0.win 0).block.Idx → Elt F (cfg0.win 0).elt)
    (h : (rdats m Rel 0 c).Finds 0 t Y) : Y = fun j => V m c main_v0 j := by
  obtain ⟨n, hn⟩ := t
  induction n generalizing Y with
  | zero =>
    obtain ⟨d, rfl⟩ := ((rdats m Rel 0 c).finds_of_fetch ((fetch_0_iff _).mpr rfl) Y).mp h
    exact fetched_0 m Rel c _ d
  | succ n ih =>
    have hf : (cfg0.win 0).fetch ⟨n + 1, hn⟩ = false := by
      cases hb : (cfg0.win 0).fetch ⟨n + 1, hn⟩
      · rfl
      · exact absurd ((fetch_0_iff _).mp hb) (Nat.succ_ne_zero n)
    rcases ((rdats m Rel 0 c).finds_of_pos hf (Nat.succ_ne_zero n) Y).mp h with hfl | ⟨Y', hY', haft⟩
    · rw [flush_0] at hfl; exact absurd hfl Bool.false_ne_true
    · exact (show Y = Y' from haft).trans (ih Y' (Nat.lt_of_succ_lt hn) hY')

/-- The weight halves and the bias are fetched at every point: what the body finds in their buffers is the block
    on the part the transfer moved, and some contents elsewhere. -/
theorem finds1 (c : Dev nD) (t : Fin cfg0.N) (Y : (cfg0.win 1).block.Idx → Elt F (cfg0.win 1).elt)
    (h : (rdats m Rel 0 c).Finds 1 t Y) : ∃ d, Y = (rdats m Rel 0 c).fetched 1 t d :=
  ((rdats m Rel 0 c).finds_of_fetch (fetch0_1 t) Y).mp h
theorem finds2 (c : Dev nD) (t : Fin cfg0.N) (Y : (cfg0.win 2).block.Idx → Elt F (cfg0.win 2).elt)
    (h : (rdats m Rel 0 c).Finds 2 t Y) : ∃ d, Y = (rdats m Rel 0 c).fetched 2 t d :=
  ((rdats m Rel 0 c).finds_of_fetch (fetch0_2 t) Y).mp h
theorem finds3 (c : Dev nD) (t : Fin cfg0.N) (Y : (cfg0.win 3).block.Idx → Elt F (cfg0.win 3).elt)
    (h : (rdats m Rel 0 c).Finds 3 t Y) : ∃ d, Y = (rdats m Rel 0 c).fetched 3 t d :=
  ((rdats m Rel 0 c).finds_of_fetch (fetch0_3 t) Y).mp h

/-- The body obligation, given that the caller's relation holds of the body's value of the activation array and of
    any three just-fetched buffers: at every point, whatever the five buffers may hold by the schedule, the body
    runs, hands the four inputs back as found and leaves the result's buffer in the relation. -/
theorem body_obligation
    (hRel : ∀ (c : Dev nD) (t : Fin cfg0.N) (d1 d2 : S3072x512.Idx → Elt F .f32) (d3 : S1x3072.Idx → Elt F .f32),
      Rel c t (Gen.k0_pay1 (Body.xlo (fun j => V m c main_v0 j)) (Body.xhi (fun j => V m c main_v0 j))
        ((rdats m Rel 0 c).fetched 1 t d1) ((rdats m Rel 0 c).fetched 2 t d2) ((rdats m Rel 0 c).fetched 3 t d3)))
    (c : Dev nD) : (rdats m Rel 0 c).BodyObligation (defs₀ (F := F)) 𝒱₀ () Set.univ := by
  intro t Y hY
  have h0 := finds0 m Rel c t (Y 0) (hY 0)
  obtain ⟨d1, h1⟩ := finds1 m Rel c t (Y 1) (hY 1)
  obtain ⟨d2, h2⟩ := finds2 m Rel c t (Y 2) (hY 2)
  obtain ⟨d3, h3⟩ := finds3 m Rel c t (Y 3) (hY 3)
  have hR : Rel c t (Gen.k0_pay1 (Body.xlo (Y 0)) (Body.xhi (Y 0)) (Y 1) (Y 2) (Y 3)) := by
    rw [h0, h1, h2, h3]; exact hRel c t d1 d2 d3
  rw [bigSep_W0, bigSep_W0]
  rw [show (rdats m Rel 0 c).Φ t.succ = (rdats m Rel 0 c).Φ t.castSucc from rfl,
    show (rdats m Rel 0 c).owesAt () t.succ = (rdats m Rel 0 c).owesAt () t.castSucc from rfl]
  iintro ⟨HΦ, Ho, H0, H1, H2, H3, H4⟩
  iapply (Body.body_at (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (Y 0) (Y 1) (Y 2) (Y 3) (Y 4) _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  isplitl [H0]
  · iexists Y 0; isplitr; · ipureintro; exact rfl
    iexact H0
  isplitl [H1]
  · iexists Y 1; isplitr; · ipureintro; exact rfl
    iexact H1
  isplitl [H2]
  · iexists Y 2; isplitr; · ipureintro; exact rfl
    iexact H2
  isplitl [H3]
  · iexists Y 3; isplitr; · ipureintro; exact rfl
    iexact H3
  · iexists Gen.k0_pay1 (Body.xlo (Y 0)) (Body.xhi (Y 0)) (Y 1) (Y 2) (Y 3); isplitr; · ipureintro; exact hR
    iexact H4

/-- info: 'Cert.KernelIdeal.Run.body_obligation' depends on axioms: [propext, Classical.choice, Quot.sound] -/
#guard_msgs in #print axioms body_obligation

end Cert.KernelIdeal.Run

end
-- ==== Proof.HostKI.lean ====
/-
  The host's reshapes around the kernel, read at an index. Before the kernel the activations [32, 8, 1024] are
  flattened to [256, 1024] (row r is batch r / 8, position r % 8) and the bias [100000] becomes the one row
  [1, 100000]; after it the result [256, 100000] is unflattened to [32, 8, 100000] (entry (i, j) is row 8 i + j).
  A reshape keeps the row-major position of every element, and every other buffer keeps what it held.
-/
import proofs.«145559_g35098472743185_cont_8to1_b_329_11_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostReads

open Idealize.ShloMosaic Idealize.ShloMosaic.ValueIdx Cert.KernelIdeal Cert.KernelIdeal.Gen

variable {F : FTy → Type} [FloatOps F]

/-! ## The two reshapes of rank 3 and rank 2, at an index -/

theorem div8_lt (r : Fin 256) : r.val / 8 < 32 := by omega
theorem mod8_lt (r : Fin 256) : r.val % 8 < 8 := by omega
theorem row_lt (i : Fin 32) (j : Fin 8) : 8 * i.val + j.val < 256 := by omega

/-- [32, 8, 1024] flattened to [256, 1024]: row r holds batch r / 8, position r % 8. -/
theorem flatten_apply {α : Type} (x : S32x8x1024.Idx → α) (h : S32x8x1024.ShapeCasts S256x1024) (r : Fin 256) (k : Fin 1024) :
    shapeCast S256x1024 x h (ix2 r k) = x (ix3 ⟨r.val / 8, div8_lt r⟩ ⟨r.val % 8, mod8_lt r⟩ k) :=
  shapeCast_apply x h _ _ (by
    rw [Shape.rowMajor_val_three, Shape.rowMajor_val_two]
    show (r.val / 8 * 8 + r.val % 8) * 1024 + k.val = r.val * 1024 + k.val
    rw [Nat.div_add_mod' r.val 8])

/-- [256, 100000] unflattened to [32, 8, 100000]: entry (i, j) holds row 8 i + j. -/
theorem unflatten_apply {α : Type} (y : S256x100000.Idx → α) (h : S256x100000.ShapeCasts S32x8x100000) (i : Fin 32) (j : Fin 8)
    (v : Fin 100000) : shapeCast S32x8x100000 y h (ix3 i j v) = y (ix2 ⟨8 * i.val + j.val, row_lt i j⟩ v) :=
  shapeCast_apply y h _ _ (by
    rw [Shape.rowMajor_val_three, Shape.rowMajor_val_two]
    show (8 * i.val + j.val) * 100000 + v.val = (i.val * 8 + j.val) * 100000 + v.val
    rw [Nat.mul_comm 8 i.val])

/-! ## The buffers after the operations before the kernel -/

/-- The flattened activations. -/
theorem after0_v0 (W : Valuation τ sig (Elt F)) (r : Fin 256) (k : Fin 1024) :
    (StableHlo.after (hostOps0 (F := F)) W (Proc.devRef .tc main_v0) : S256x1024.Idx → Elt F .f32) (ix2 r k)
      = (W (Proc.devRef .tc main_arg0) : S32x8x1024.Idx → Elt F .f32) (ix3 ⟨r.val / 8, div8_lt r⟩ ⟨r.val % 8, mod8_lt r⟩ k) := by
  have e : (StableHlo.after (hostOps0 (F := F)) W (Proc.devRef .tc main_v0) : S256x1024.Idx → Elt F .f32)
      = shapeCast S256x1024 (W (Proc.devRef .tc main_arg0) : S32x8x1024.Idx → Elt F .f32) shapeCasts_S32x8x1024_S256x1024 := by
    after_results; rfl
  rw [e]
  exact flatten_apply _ _ r k

/-- The bias as a row. -/
theorem after0_v1 (W : Valuation τ sig (Elt F)) (v : Fin 100000) :
    (StableHlo.after (hostOps0 (F := F)) W (Proc.devRef .tc main_v1) : S1x100000.Idx → Elt F .f32) (ix2 (0 : Fin 1) v)
      = (W (Proc.devRef .tc main_arg2) : S100000.Idx → Elt F .f32) (ix1 v) := by
  have e : (StableHlo.after (hostOps0 (F := F)) W (Proc.devRef .tc main_v1) : S1x100000.Idx → Elt F .f32)
      = shapeCast S1x100000 (W (Proc.devRef .tc main_arg2) : S100000.Idx → Elt F .f32) shapeCasts_S100000_S1x100000 := by
    after_results; rfl
  rw [e]
  exact shapeCast_a_1a_apply _ _ (0 : Fin 1) v

/-- A reshape writes its result only. -/
theorem reshape_writes_sub {x y : Ref sig .tc} (he hn hx hy) {L : List (Ref sig .tc)} (h : y ∈ L) :
    (StableHlo.reshape (τ := τ) (Val := Elt F) x y he hn hx hy).writes ⊆ (L.map (Proc.devRef (τ := τ) .tc)).toFinset :=
  Finset.singleton_subset_iff.mpr (List.mem_toFinset.mpr (List.mem_map_of_mem h))

/-- The operations before the kernel write the flattened activations and the bias row only. -/
theorem after0_keep (W : Valuation τ sig (Elt F)) {b : Ref sig .tc} (h0 : b ≠ main_v0) (h1 : b ≠ main_v1) :
    StableHlo.after (hostOps0 (F := F)) W (Proc.devRef .tc b) = W (Proc.devRef .tc b) :=
  StableHlo.after_of_writes_sub (W := [main_v0, main_v1]) _ W
    ⟨reshape_writes_sub _ _ _ _ List.mem_cons_self, reshape_writes_sub _ _ _ _ (List.mem_cons_of_mem _ List.mem_cons_self)⟩
    (by simp only [List.mem_cons, List.not_mem_nil, or_false, not_or]; exact ⟨h0, h1⟩)

theorem after0_arg0 (W : Valuation τ sig (Elt F)) : StableHlo.after (hostOps0 (F := F)) W (Proc.devRef .tc main_arg0) = W (Proc.devRef .tc main_arg0) :=
  after0_keep W (by decide) (by decide)
theorem after0_arg1 (W : Valuation τ sig (Elt F)) : StableHlo.after (hostOps0 (F := F)) W (Proc.devRef .tc main_arg1) = W (Proc.devRef .tc main_arg1) :=
  after0_keep W (by decide) (by decide)
theorem after0_arg2 (W : Valuation τ sig (Elt F)) : StableHlo.after (hostOps0 (F := F)) W (Proc.devRef .tc main_arg2) = W (Proc.devRef .tc main_arg2) :=
  after0_keep W (by decide) (by decide)
theorem after0_v2 (W : Valuation τ sig (Elt F)) : StableHlo.after (hostOps0 (F := F)) W (Proc.devRef .tc main_v2) = W (Proc.devRef .tc main_v2) :=
  after0_keep W (by decide) (by decide)
theorem after0_v3 (W : Valuation τ sig (Elt F)) : StableHlo.after (hostOps0 (F := F)) W (Proc.devRef .tc main_v3) = W (Proc.devRef .tc main_v3) :=
  after0_keep W (by decide) (by decide)

/-! ## The buffers after the operation after the kernel -/

/-- The unflattened result. -/
theorem after1_v3 (W : Valuation τ sig (Elt F)) (i : Fin 32) (j : Fin 8) (v : Fin 100000) :
    (StableHlo.after (hostOps1 (F := F)) W (Proc.devRef .tc main_v3) : S32x8x100000.Idx → Elt F .f32) (ix3 i j v)
      = (W (Proc.devRef .tc main_v2) : S256x100000.Idx → Elt F .f32) (ix2 ⟨8 * i.val + j.val, row_lt i j⟩ v) := by
  have e : (StableHlo.after (hostOps1 (F := F)) W (Proc.devRef .tc main_v3) : S32x8x100000.Idx → Elt F .f32)
      = shapeCast S32x8x100000 (W (Proc.devRef .tc main_v2) : S256x100000.Idx → Elt F .f32) shapeCasts_S256x100000_S32x8x100000 := by
    after_results; rfl
  rw [e]
  exact unflatten_apply _ _ i j v

/-- The operation after the kernel writes the unflattened result only. -/
theorem after1_keep (W : Valuation τ sig (Elt F)) {b : Ref sig .tc} (h : b ≠ main_v3) :
    StableHlo.after (hostOps1 (F := F)) W (Proc.devRef .tc b) = W (Proc.devRef .tc b) :=
  StableHlo.after_of_writes_sub (W := [main_v3]) _ W (reshape_writes_sub _ _ _ _ List.mem_cons_self)
    (by simp only [List.mem_cons, List.not_mem_nil, or_false]; exact h)

theorem after1_arg0 (W : Valuation τ sig (Elt F)) : StableHlo.after (hostOps1 (F := F)) W (Proc.devRef .tc main_arg0) = W (Proc.devRef .tc main_arg0) :=
  after1_keep W (by decide)
theorem after1_arg1 (W : Valuation τ sig (Elt F)) : StableHlo.after (hostOps1 (F := F)) W (Proc.devRef .tc main_arg1) = W (Proc.devRef .tc main_arg1) :=
  after1_keep W (by decide)
theorem after1_arg2 (W : Valuation τ sig (Elt F)) : StableHlo.after (hostOps1 (F := F)) W (Proc.devRef .tc main_arg2) = W (Proc.devRef .tc main_arg2) :=
  after1_keep W (by decide)

end Cert.KernelIdeal.HostReads

end
-- ==== Proof.FrameKI.lean ====
/-
  The kernel program keeps its arguments, at any float instance. Nothing is asked of the result: the relation on
  the result window's staged blocks is the trivial one, so the body's obligation says only that it leaves the four
  input staging buffers as it found them. Neither reshape writes an argument, the region's windows on the
  arguments only read, and the weight array's two half shares are joined again when the region ends.
-/
import proofs.«145559_g35098472743185_cont_8to1_b_329_11_alg».proof.Proof.RunKI
import proofs.«145559_g35098472743185_cont_8to1_b_329_11_alg».proof.Proof.ObligationKI
import proofs.«145559_g35098472743185_cont_8to1_b_329_11_alg».proof.Proof.HostKI

noncomputable section

namespace Cert.KernelIdeal.Run

open Cert.KernelIdeal Cert.KernelIdeal.Gen

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

/-- Nothing is said of the result's staged blocks. -/
abbrev RelAny : OutRel F := fun _ _ _ => True

/-- A buffer that neither reshape writes and that is not the region's result reaches the end as launched. -/
theorem kept_to_end (c : Dev nD) (F2 : Buf (Elt F) ((c : Thread nD τ).loc main_v2)) {b : Ref sig .tc}
    (h0 : b ≠ main_v0) (h1 : b ≠ main_v1) (h2 : b ≠ main_v2) (h3 : b ≠ main_v3) :
    StableHlo.after hostOps1 (V1 m c F2) (Proc.devRef .tc b) = m ((c : Thread nD τ).loc b) := by
  rw [HostReads.after1_keep _ h3, V1_of_ne m c F2 h2, HostReads.after0_keep _ h0 h1]

/-- At the compiled mesh, from any memory with zero counters: every weakly fair execution of @main terminates,
    nothing faulting, with the three argument arrays as they were. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => by
      obtain ⟨F2, -, -, e0, e1, e2⟩ := h c
      exact ⟨e0.trans (kept_to_end m c F2 (by decide) (by decide) (by decide) (by decide)),
        e1.trans (kept_to_end m c F2 (by decide) (by decide) (by decide) (by decide)),
        e2.trans (kept_to_end m c F2 (by decide) (by decide) (by decide) (by decide))⟩)
    (run_main m ρ RelAny (body_obligation m RelAny fun _ _ _ _ _ => trivial))

end Cert.KernelIdeal.Run

end
-- ==== Proof.GeomKI.lean ====
/-
  The geometry of the five windows over the 33 grid points: which block each point names, how much of it lies
  inside the array, and which array element a block's coordinate reads. The weight, bias and result blocks of
  the last point overhang their arrays: of its 3072 vocabulary entries only 100000 - 32 * 3072 = 1696 exist.
-/
import proofs.«145559_g35098472743185_cont_8to1_b_329_11_alg».proof.Proof.Gen.KernelIdeal.Points
import Idealize.ShloMosaic.Lib.Pipeline.Value
import Idealize.ShloMosaic.Lib.ValueIdx

noncomputable section

namespace Cert.KernelIdeal.Geom

open Idealize.ShloMosaic Idealize.ShloMosaic.ValueIdx Cert.KernelIdeal Cert.KernelIdeal.Gen

variable {F : FTy → Type} [FloatOps F]

/-! ## The block each point names -/

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 1 :=
  (by decide +kernel : ∀ t : Fin grid0.N, win0_2.index t 0 = t.val ∧ win0_2.index t 1 = 1)
theorem index3 : ∀ t : Fin cfg0.N, win0_3.index t 0 = 0 ∧ win0_3.index t 1 = t.val :=
  (by decide +kernel : ∀ t : Fin grid0.N, win0_3.index t 0 = 0 ∧ win0_3.index t 1 = t.val)
theorem index4 : ∀ t : Fin cfg0.N, win0_4.index t 0 = 0 ∧ win0_4.index t 1 = t.val :=
  (by decide +kernel : ∀ t : Fin grid0.N, win0_4.index t 0 = 0 ∧ win0_4.index t 1 = t.val)

/-! ## How much of the block a transfer moves -/

theorem xsize0 : ∀ t : Fin cfg0.N, win0_0.xsize (grid0.coords t) 0 = 256 ∧ win0_0.xsize (grid0.coords t) 1 = 1024 :=
  (by decide +kernel : ∀ t : Fin grid0.N, win0_0.xsize (grid0.coords t) 0 = 256 ∧ win0_0.xsize (grid0.coords t) 1 = 1024)
theorem xsize1 : ∀ t : Fin cfg0.N, win0_1.xsize (grid0.coords t) 0 = min 3072 (100000 - 3072 * t.val) ∧ win0_1.xsize (grid0.coords t) 1 = 512 :=
  (by decide +kernel : ∀ t : Fin grid0.N, win0_1.xsize (grid0.coords t) 0 = min 3072 (100000 - 3072 * t.val) ∧ win0_1.xsize (grid0.coords t) 1 = 512)
theorem xsize2 : ∀ t : Fin cfg0.N, win0_2.xsize (grid0.coords t) 0 = min 3072 (100000 - 3072 * t.val) ∧ win0_2.xsize (grid0.coords t) 1 = 512 :=
  (by decide +kernel : ∀ t : Fin grid0.N, win0_2.xsize (grid0.coords t) 0 = min 3072 (100000 - 3072 * t.val) ∧ win0_2.xsize (grid0.coords t) 1 = 512)
theorem xsize3 : ∀ t : Fin cfg0.N, win0_3.xsize (grid0.coords t) 0 = 1 ∧ win0_3.xsize (grid0.coords t) 1 = min 3072 (100000 - 3072 * t.val) :=
  (by decide +kernel : ∀ t : Fin grid0.N, win0_3.xsize (grid0.coords t) 0 = 1 ∧ win0_3.xsize (grid0.coords t) 1 = min 3072 (100000 - 3072 * t.val))
theorem xsize4 : ∀ t : Fin cfg0.N, win0_4.xsize (grid0.coords t) 0 = 256 ∧ win0_4.xsize (grid0.coords t) 1 = min 3072 (100000 - 3072 * t.val) :=
  (by decide +kernel : ∀ t : Fin grid0.N, win0_4.xsize (grid0.coords t) 0 = 256 ∧ win0_4.xsize (grid0.coords t) 1 = min 3072 (100000 - 3072 * t.val))

/-! ## A coordinate inside a moved block, as a coordinate of the array

A block's coordinate j names the array's coordinate (block index) * (block size) + j on each axis. Inside the
part a transfer moves, j stays below the moved size, hence inside the array. -/

theorem row1_lt (t : Fin cfg0.N) (j : (win0_1.xblock (grid0.coords t)).Idx) : 3072 * t.val + (j 0).val < 100000 := by
  have h : (j 0).val < win0_1.xsize (grid0.coords t) 0 := (j 0).isLt
  rw [(xsize1 t).1] at h; omega
theorem col1_lt (t : Fin cfg0.N) (j : (win0_1.xblock (grid0.coords t)).Idx) : (j 1).val < 1024 := by
  have h : (j 1).val < win0_1.xsize (grid0.coords t) 1 := (j 1).isLt
  rw [(xsize1 t).2] at h; omega
theorem row2_lt (t : Fin cfg0.N) (j : (win0_2.xblock (grid0.coords t)).Idx) : 3072 * t.val + (j 0).val < 100000 := by
  have h : (j 0).val < win0_2.xsize (grid0.coords t) 0 := (j 0).isLt
  rw [(xsize2 t).1] at h; omega
theorem col2_lt (t : Fin cfg0.N) (j : (win0_2.xblock (grid0.coords t)).Idx) : 512 + (j 1).val < 1024 := by
  have h : (j 1).val < win0_2.xsize (grid0.coords t) 1 := (j 1).isLt
  rw [(xsize2 t).2] at h; omega
theorem col3_lt (t : Fin cfg0.N) (j : (win0_3.xblock (grid0.coords t)).Idx) : 3072 * t.val + (j 1).val < 100000 := by
  have h : (j 1).val < win0_3.xsize (grid0.coords t) 1 := (j 1).isLt
  rw [(xsize3 t).2] at h; omega
theorem row4_lt (t : Fin cfg0.N) (j : (win0_4.xblock (grid0.coords t)).Idx) : (j 0).val < 256 := by
  have h : (j 0).val < win0_4.xsize (grid0.coords t) 0 := (j 0).isLt
  rw [(xsize4 t).1] at h; exact h
theorem col4_lt (t : Fin cfg0.N) (j : (win0_4.xblock (grid0.coords t)).Idx) : 3072 * t.val + (j 1).val < 100000 := by
  have h : (j 1).val < win0_4.xsize (grid0.coords t) 1 := (j 1).isLt
  rw [(xsize4 t).2] at h; omega
theorem row0_lt (t : Fin cfg0.N) (j : (win0_0.xblock (grid0.coords t)).Idx) : (j 0).val < 256 := by
  have h : (j 0).val < win0_0.xsize (grid0.coords t) 0 := (j 0).isLt
  rw [(xsize0 t).1] at h; exact h
theorem col0_lt (t : Fin cfg0.N) (j : (win0_0.xblock (grid0.coords t)).Idx) : (j 1).val < 1024 := by
  have h : (j 1).val < win0_0.xsize (grid0.coords t) 1 := (j 1).isLt
  rw [(xsize0 t).2] at h; exact h

/-! ## What a block reads of an array -/

/-- The activations' one block is the whole array. -/
theorem read0 (t : Fin cfg0.N) (A : (⟨S256x1024, .f32⟩ : BufTy).Contents (Elt F)) (j : (win0_0.xblock (grid0.coords t)).Idx) :
    (win0_0.blk t).view.read (Elt F) A j = A (ix2 ⟨(j 0).val, row0_lt t j⟩ ⟨(j 1).val, col0_lt t j⟩) := by
  rw [View.read_apply]
  show A ((win0_0.rect t).emb j) = _
  refine congrArg A (funext fun a => Fin.ext ?_)
  rw [Rect.emb_apply]
  match a with
  | ⟨0, _⟩ => show win0_0.index t 0 * 256 + 1 * (j 0).val = (j 0).val; rw [(index0 t).1]; omega
  | ⟨1, _⟩ => show win0_0.index t 1 * 1024 + 1 * (j 1).val = (j 1).val; rw [(index0 t).2]; omega

/-- Point t's first weight block: rows 3072 t + j0 of the weights, features j1 of the low half. -/
theorem read1 (t : Fin cfg0.N) (A : (⟨S100000x1024, .f32⟩ : BufTy).Contents (Elt F)) (j : (win0_1.xblock (grid0.coords t)).Idx) :
    (win0_1.blk t).view.read (Elt F) A j = A (ix2 ⟨3072 * t.val + (j 0).val, row1_lt t j⟩ ⟨(j 1).val, col1_lt t j⟩) := by
  rw [View.read_apply]
  show A ((win0_1.rect t).emb j) = _
  refine congrArg A (funext fun a => Fin.ext ?_)
  rw [Rect.emb_apply]
  match a with
  | ⟨0, _⟩ => show win0_1.index t 0 * 3072 + 1 * (j 0).val = 3072 * t.val + (j 0).val; rw [(index1 t).1]; omega
  | ⟨1, _⟩ => show win0_1.index t 1 * 512 + 1 * (j 1).val = (j 1).val; rw [(index1 t).2]; omega

/-- Point t's second weight block: the same rows, features 512 + j1 of the high half. -/
theorem read2 (t : Fin cfg0.N) (A : (⟨S100000x1024, .f32⟩ : BufTy).Contents (Elt F)) (j : (win0_2.xblock (grid0.coords t)).Idx) :
    (win0_2.blk t).view.read (Elt F) A j = A (ix2 ⟨3072 * t.val + (j 0).val, row2_lt t j⟩ ⟨512 + (j 1).val, col2_lt t j⟩) := by
  rw [View.read_apply]
  show A ((win0_2.rect t).emb j) = _
  refine congrArg A (funext fun a => Fin.ext ?_)
  rw [Rect.emb_apply]
  match a with
  | ⟨0, _⟩ => show win0_2.index t 0 * 3072 + 1 * (j 0).val = 3072 * t.val + (j 0).val; rw [(index2 t).1]; omega
  | ⟨1, _⟩ => show win0_2.index t 1 * 512 + 1 * (j 1).val = 512 + (j 1).val; rw [(index2 t).2]; omega

/-- Point t's bias block: entries 3072 t + j1 of the bias row. -/
theorem read3 (t : Fin cfg0.N) (A : (⟨S1x100000, .f32⟩ : BufTy).Contents (Elt F)) (j : (win0_3.xblock (grid0.coords t)).Idx) :
    (win0_3.blk t).view.read (Elt F) A j = A (ix2 (0 : Fin 1) ⟨3072 * t.val + (j 1).val, col3_lt t j⟩) := by
  rw [View.read_apply]
  show A ((win0_3.rect t).emb j) = _
  refine congrArg A (funext fun a => Fin.ext ?_)
  rw [Rect.emb_apply]
  match a with
  | ⟨0, _⟩ =>
    have h : (j 0).val < win0_3.xsize (grid0.coords t) 0 := (j 0).isLt
    rw [(xsize3 t).1] at h
    show win0_3.index t 0 * 1 + 1 * (j 0).val = 0; rw [(index3 t).1]; omega
  | ⟨1, _⟩ => show win0_3.index t 1 * 3072 + 1 * (j 1).val = 3072 * t.val + (j 1).val; rw [(index3 t).2]; omega

/-- Point t's result block: columns 3072 t + j1 of the result. -/
theorem read4 (t : Fin cfg0.N) (A : (⟨S256x100000, .f32⟩ : BufTy).Contents (Elt F)) (j : (win0_4.xblock (grid0.coords t)).Idx) :
    (win0_4.blk t).view.read (Elt F) A j = A (ix2 ⟨(j 0).val, row4_lt t j⟩ ⟨3072 * t.val + (j 1).val, col4_lt t j⟩) := by
  rw [View.read_apply]
  show A ((win0_4.rect t).emb j) = _
  refine congrArg A (funext fun a => Fin.ext ?_)
  rw [Rect.emb_apply]
  match a with
  | ⟨0, _⟩ => show win0_4.index t 0 * 256 + 1 * (j 0).val = (j 0).val; rw [(index4 t).1]; omega
  | ⟨1, _⟩ => show win0_4.index t 1 * 3072 + 1 * (j 1).val = 3072 * t.val + (j 1).val; rw [(index4 t).2]; omega

/-- An entry of the result lies in what point t writes back iff its column is one of the block's columns
    inside the array (every row is: the block spans the rows). -/
theorem mem4 (t : Fin cfg0.N) (i : S256x100000.Idx) :
    i ∈ (win0_4.blk t).view.setOn Finset.univ
      ↔ 3072 * t.val ≤ (i 1).val ∧ (i 1).val < 3072 * t.val + min 3072 (100000 - 3072 * t.val) := by
  rw [View.setOn_univ]
  show i ∈ ((View.whole main_v2).slice (win0_4.rect t)).set ↔ _
  rw [View.set_slice_whole, Rect.mem_set_unit]
  have h0 : (i 0 : Nat) < 256 := (i 0).isLt
  refine ⟨fun h => ?_, fun h a => ?_⟩
  · have h1 := h 1
    change win0_4.index t 1 * 3072 ≤ (i 1 : Nat) ∧ (i 1 : Nat) < win0_4.index t 1 * 3072 + win0_4.xsize (grid0.coords t) 1 at h1
    rw [(index4 t).2, (xsize4 t).2] at h1
    omega
  · match a with
    | ⟨0, _⟩ =>
      change win0_4.index t 0 * 256 ≤ (i 0 : Nat) ∧ (i 0 : Nat) < win0_4.index t 0 * 256 + win0_4.xsize (grid0.coords t) 0
      rw [(index4 t).1, (xsize4 t).1]; omega
    | ⟨1, _⟩ =>
      change win0_4.index t 1 * 3072 ≤ (i 1 : Nat) ∧ (i 1 : Nat) < win0_4.index t 1 * 3072 + win0_4.xsize (grid0.coords t) 1
      rw [(index4 t).2, (xsize4 t).2]; omega

end Cert.KernelIdeal.Geom

end
-- ==== Proof.PayloadIdeal.lean ====
/-
  The body's one payload at the ideal instance, read at an index. On the extended reals every format change
  is the identity and a shape cast of a shape to itself changes nothing, so entry (r, v) of the stored block
  is the product of row r of the first activation half with row v of the first weight half, plus the same for
  the second halves, plus entry v of the bias row: both matrix products contract the operands' second axes,
  and their accumulators are zero.
-/
import proofs.«145559_g35098472743185_cont_8to1_b_329_11_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdeal

open Idealize.ShloMosaic Idealize.ShloMosaic.ValueIdx Cert.KernelIdeal

/-- The left operand's row is the output's row. -/
theorem lhs_0 (j : S256x3072.Idx) (q : dot_S256x512_S3072x512_S256x3072_1_1_0_0_n_n.contr.Idx) :
    (dot_S256x512_S3072x512_S256x3072_1_1_0_0_n_n.lhsIdx j q 0).val = (j 0).val := by
  unfold DotDims.lhsIdx
  rw [dif_neg (show ¬(0 : Fin S256x512.rank) ∈ dot_S256x512_S3072x512_S256x3072_1_1_0_0_n_n.lhsBatch by decide),
    dif_pos (show (0 : Fin S256x512.rank) ∈ dot_S256x512_S3072x512_S256x3072_1_1_0_0_n_n.lhsNonContracting by decide)]
  rfl

/-- The left operand's column is the contraction index. -/
theorem lhs_1 (j : S256x3072.Idx) (q : dot_S256x512_S3072x512_S256x3072_1_1_0_0_n_n.contr.Idx) :
    (dot_S256x512_S3072x512_S256x3072_1_1_0_0_n_n.lhsIdx j q 1).val = (q ⟨0, by decide⟩).val :=
  dot_S256x512_S3072x512_S256x3072_1_1_0_0_n_n.lhsIdx_val_of_single rfl j q

/-- The right operand's row is the output's column. -/
theorem rhs_0 (j : S256x3072.Idx) (q : dot_S256x512_S3072x512_S256x3072_1_1_0_0_n_n.contr.Idx) :
    (dot_S256x512_S3072x512_S256x3072_1_1_0_0_n_n.rhsIdx j q 0).val = (j 1).val := by
  unfold DotDims.rhsIdx
  rw [dif_neg (show ¬(0 : Fin S3072x512.rank) ∈ dot_S256x512_S3072x512_S256x3072_1_1_0_0_n_n.rhsBatch by decide),
    dif_pos (show (0 : Fin S3072x512.rank) ∈ dot_S256x512_S3072x512_S256x3072_1_1_0_0_n_n.rhsNonContracting by decide)]
  rfl

/-- The right operand's column is the contraction index. -/
theorem rhs_1 (j : S256x3072.Idx) (q : dot_S256x512_S3072x512_S256x3072_1_1_0_0_n_n.contr.Idx) :
    (dot_S256x512_S3072x512_S256x3072_1_1_0_0_n_n.rhsIdx j q 1).val = (q ⟨0, by decide⟩).val :=
  dot_S256x512_S3072x512_S256x3072_1_1_0_0_n_n.rhsIdx_val_of_single rfl j q

/-- A block product into the zero accumulator, at entry (r, v): the sum over the 512 contracted positions of
    the left operand's row r times the right operand's row v. -/
theorem matmul_zero_apply {φ₁ φ₂ : FTy} (a : FVec Ideal S256x512 φ₁) (w : FVec Ideal S3072x512 φ₂)
    (r : Fin 256) (v : Fin 3072) :
    FloatOps.matmul dot_S256x512_S3072x512_S256x3072_1_1_0_0_n_n none a w
        (constant (F := Ideal) S256x3072 .f32 0x00000000#32) (ix2 r v)
      = ∑ k : Fin 512, a (ix2 r k) * w (ix2 v k) := by
  rw [Ideal.matmul_constant_zero_apply,
    ← Equiv.sum_comp (contrEquiv1 dot_S256x512_S3072x512_S256x3072_1_1_0_0_n_n 512 rfl rfl).symm]
  refine Finset.sum_congr rfl fun k _ => ?_
  have hk := contrEquiv1_symm_val dot_S256x512_S3072x512_S256x3072_1_1_0_0_n_n 512 rfl rfl k
  have el : dot_S256x512_S3072x512_S256x3072_1_1_0_0_n_n.lhsIdx (ix2 r v)
      ((contrEquiv1 dot_S256x512_S3072x512_S256x3072_1_1_0_0_n_n 512 rfl rfl).symm k) = ix2 r k :=
    funext fun c => Fin.ext (by
      match c with
      | ⟨0, _⟩ => exact lhs_0 _ _
      | ⟨1, _⟩ => exact (lhs_1 _ _).trans hk)
  have er : dot_S256x512_S3072x512_S256x3072_1_1_0_0_n_n.rhsIdx (ix2 r v)
      ((contrEquiv1 dot_S256x512_S3072x512_S256x3072_1_1_0_0_n_n 512 rfl rfl).symm k) = ix2 v k :=
    funext fun c => Fin.ext (by
      match c with
      | ⟨0, _⟩ => exact rhs_0 _ _
      | ⟨1, _⟩ => exact (rhs_1 _ _).trans hk)
  rw [el, er]

/-- The bias row broadcast down the 256 rows reads entry v of the row at (r, v). -/
theorem bias_apply (y : FVec Ideal S1x3072 .f32) (r : Fin 256) (v : Fin 3072) :
    broadcastTo S256x3072 y Gen.broadcasts_S1x3072_S256x3072 (ix2 r v) = y (ix2 (0 : Fin 1) v) :=
  broadcastTo_apply y _ (ix2 r v) (ix2 (0 : Fin 1) v) (fun c => match c with
    | ⟨0, _⟩ => by show 0 = if (1 : Nat) = 1 then 0 else _; rw [if_pos rfl]
    | ⟨1, _⟩ => by show v.val = if (3072 : Nat) = 1 then 0 else _; rw [if_neg (by decide)]; rfl)

/-- Entry (r, v) of the stored block: the two half products plus the bias. -/
theorem pay1_apply (v0 v3 : Vec Ideal S256x512 .f32) (v6 v8 : Vec Ideal S3072x512 .f32)
    (v13 : Vec Ideal S1x3072 .f32) (r : Fin 256) (v : Fin 3072) :
    Gen.k0_pay1 (F := Ideal) v0 v3 v6 v8 v13 (ix2 r v)
      = ((∑ k : Fin 512, v0 (ix2 r k) * v6 (ix2 v k)) + ∑ k : Fin 512, v3 (ix2 r k) * v8 (ix2 v k))
        + v13 (ix2 (0 : Fin 1) v) := by
  unfold Gen.k0_pay1
  simp only [matmul, shapeCast_self]
  rw [addf_apply, addf_apply, matmul_zero_apply, matmul_zero_apply, bias_apply]
  rfl

end Cert.KernelIdeal.PayIdeal

end
-- ==== Proof.RefValue.lean ====
/-
  The reference at the ideal instance, read at an index: the einsum's entry (b, t, v) is the sum over k of
  x(b,t,k) · W(v,k), and the broadcast bias adds b(v).
-/
import proofs.«145559_g35098472743185_cont_8to1_b_329_11_alg».proof.Proof.Gen.ReferenceIdeal.Read
import proofs.«145559_g35098472743185_cont_8to1_b_329_11_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Read

/-- The left operand of the contraction at output entry (i, j, v) and feature k is x(i, j, k). -/
theorem lidx_ix3 (i : Fin 32) (j : Fin 8) (v : Fin 100000) (k : Fin 1024) :
    lidx_main_v0 (ix3 i j v) k = ix3 i j k :=
  funext fun a => by
    match a with
    | ⟨0, _⟩ => rfl
    | ⟨1, _⟩ => rfl
    | ⟨2, _⟩ => rfl

/-- The right operand of the contraction at output entry (i, j, v) and feature k is W(v, k). -/
theorem ridx_ix3 (i : Fin 32) (j : Fin 8) (v : Fin 100000) (k : Fin 1024) :
    ridx_main_v0 (ix3 i j v) k = ix2 v k :=
  funext fun a => by
    match a with
    | ⟨0, _⟩ => rfl
    | ⟨1, _⟩ => rfl

/-- The two broadcasts of the bias read b(v) at output entry (i, j, v). -/
theorem bidx_ix3 (i : Fin 32) (j : Fin 8) (v : Fin 100000) :
    idx_main_v1 (idx_main_v2 (ix3 i j v)) = ix1 v :=
  funext fun a => by
    match a with
    | ⟨0, _⟩ => rfl

/-- Entry (i, j, v) of the reference: the contraction over the 1024 features, taken as the low half plus the
    high half, plus the bias b(v). Splitting the sum over the features needs only that addition on the extended reals
    is commutative and associative, so nothing is assumed of the inputs. -/
theorem ref_apply (x : (⟨S32x8x1024, .f32⟩ : BufTy).Contents (Elt Ideal))
    (W : (⟨S100000x1024, .f32⟩ : BufTy).Contents (Elt Ideal))
    (b : (⟨S100000, .f32⟩ : BufTy).Contents (Elt Ideal)) (i : Fin 32) (j : Fin 8) (v : Fin 100000) :
    val_main_v3 (F := Ideal) x W b (ix3 i j v)
      = ((∑ k : Fin 512, x (ix3 i j (Cert.Spec.lo k)) * W (ix2 v (Cert.Spec.lo k)))
          + ∑ k : Fin 512, x (ix3 i j (Cert.Spec.hi k)) * W (ix2 v (Cert.Spec.hi k)))
        + b (ix1 v) := by
  rw [val_main_v3_apply, val_main_v0_apply, val_main_v2_apply, val_main_v1_apply, bidx_ix3,
    Cert.Spec.sum_halves]
  simp only [lidx_ix3, ridx_ix3]
  rfl

end Cert.ReferenceIdeal.RefValue

end
-- ==== Proof.ValueKI.lean ====
/-
  The value the kernel program computes, at the ideal instance. The region's result array is, entry by entry,
  the projection logits(r, v) = Σ_k x(r, k) · W(v, k) + b(v) of the flattened activations: each grid point's
  write-back writes the block of that array its point names (only the part inside the array), the 33 blocks'
  columns exhaust the 100000 columns, and read through the last reshape the array is the reference's value.
-/
import proofs.«145559_g35098472743185_cont_8to1_b_329_11_alg».proof.Proof.DataKI
import proofs.«145559_g35098472743185_cont_8to1_b_329_11_alg».proof.Proof.BodyKI
import proofs.«145559_g35098472743185_cont_8to1_b_329_11_alg».proof.Proof.GeomKI
import proofs.«145559_g35098472743185_cont_8to1_b_329_11_alg».proof.Proof.HostKI
import proofs.«145559_g35098472743185_cont_8to1_b_329_11_alg».proof.Proof.PayloadIdeal
import proofs.«145559_g35098472743185_cont_8to1_b_329_11_alg».proof.Proof.RefValue
import proofs.«145559_g35098472743185_cont_8to1_b_329_11_alg».proof.Proof.Spec

noncomputable section

namespace Cert.KernelIdeal.RunValue

open Cert.KernelIdeal Cert.KernelIdeal.Gen Cert.KernelIdeal.Run

open Idealize.ShloMosaic Idealize.ShloMosaic.ValueIdx
open Idealize.ShloMosaic.TcCoe
open Idealize.SL Idealize.SL.Sem
open Idealize.ShloMosaic.Pipeline (RDat Cfg Window)

/-! ## What a fetch lands in a staging buffer, on the part it moves

For any float instance and whatever is asked of the result's window: at a coordinate of the moved part the
buffer holds the array's element the block's geometry names, whatever it held before. -/

section Fetched

variable {F : FTy → Type} [FloatOps F] (mF : (ℓ : Loc nD τ sig) → Buf (Elt F) ℓ) (Rel : OutRel F)

/-- The first weight half-block at (v, k): weight row 3072 t + v, feature k of the low half. -/
theorem fetched1_apply (c : Dev nD) (t : Fin cfg0.N) (d : S3072x512.Idx → Elt F .f32) (v : Fin 3072) (k : Fin 512)
    (hv : 3072 * t.val + v.val < 100000) :
    (rdats mF Rel 0 c).fetched 1 t d (ix2 v k)
      = (V mF c main_arg1 : S100000x1024.Idx → Elt F .f32) (ix2 ⟨3072 * t.val + v.val, hv⟩ (Cert.Spec.lo k)) := by
  have hx0 : v.val < win0_1.xsize (grid0.coords t) 0 := by rw [(Geom.xsize1 t).1]; have := v.isLt; omega
  have hx1 : k.val < win0_1.xsize (grid0.coords t) 1 := by rw [(Geom.xsize1 t).2]; exact k.isLt
  let j' : (win0_1.xblock (grid0.coords t)).Idx := fun a => match a with
    | ⟨0, _⟩ => ⟨v.val, hx0⟩
    | ⟨1, _⟩ => ⟨k.val, hx1⟩
  have e : (ix2 v k : S3072x512.Idx) = win0_1.xinj (grid0.coords t) j' := funext fun a => by
    match a with
    | ⟨0, _⟩ => rfl
    | ⟨1, _⟩ => rfl
  show win0_1.fill (grid0.coords t) d ((win0_1.blk t).view.read (Elt F) (V mF c main_arg1)) (ix2 v k) = _
  rw [e, Window.fill_xinj]
  exact Geom.read1 t (V mF c main_arg1) j'

/-- The second weight half-block at (v, k): the same row, feature k of the high half. -/
theorem fetched2_apply (c : Dev nD) (t : Fin cfg0.N) (d : S3072x512.Idx → Elt F .f32) (v : Fin 3072) (k : Fin 512)
    (hv : 3072 * t.val + v.val < 100000) :
    (rdats mF Rel 0 c).fetched 2 t d (ix2 v k)
      = (V mF c main_arg1 : S100000x1024.Idx → Elt F .f32) (ix2 ⟨3072 * t.val + v.val, hv⟩ (Cert.Spec.hi k)) := by
  have hx0 : v.val < win0_2.xsize (grid0.coords t) 0 := by rw [(Geom.xsize2 t).1]; have := v.isLt; omega
  have hx1 : k.val < win0_2.xsize (grid0.coords t) 1 := by rw [(Geom.xsize2 t).2]; exact k.isLt
  let j' : (win0_2.xblock (grid0.coords t)).Idx := fun a => match a with
    | ⟨0, _⟩ => ⟨v.val, hx0⟩
    | ⟨1, _⟩ => ⟨k.val, hx1⟩
  have e : (ix2 v k : S3072x512.Idx) = win0_2.xinj (grid0.coords t) j' := funext fun a => by
    match a with
    | ⟨0, _⟩ => rfl
    | ⟨1, _⟩ => rfl
  show win0_2.fill (grid0.coords t) d ((win0_2.blk t).view.read (Elt F) (V mF c main_arg1)) (ix2 v k) = _
  rw [e, Window.fill_xinj]
  exact Geom.read2 t (V mF c main_arg1) j'

/-- The bias block at v: entry 3072 t + v of the bias row. -/
theorem fetched3_apply (c : Dev nD) (t : Fin cfg0.N) (d : S1x3072.Idx → Elt F .f32) (v : Fin 3072)
    (hv : 3072 * t.val + v.val < 100000) :
    (rdats mF Rel 0 c).fetched 3 t d (ix2 (0 : Fin 1) v)
      = (V mF c main_v1 : S1x100000.Idx → Elt F .f32) (ix2 (0 : Fin 1) ⟨3072 * t.val + v.val, hv⟩) := by
  have hx0 : (0 : Fin 1).val < win0_3.xsize (grid0.coords t) 0 := by rw [(Geom.xsize3 t).1]; exact Nat.one_pos
  have hx1 : v.val < win0_3.xsize (grid0.coords t) 1 := by rw [(Geom.xsize3 t).2]; have := v.isLt; omega
  let j' : (win0_3.xblock (grid0.coords t)).Idx := fun a => match a with
    | ⟨0, _⟩ => ⟨(0 : Fin 1).val, hx0⟩
    | ⟨1, _⟩ => ⟨v.val, hx1⟩
  have e : (ix2 (0 : Fin 1) v : S1x3072.Idx) = win0_3.xinj (grid0.coords t) j' := funext fun a => by
    match a with
    | ⟨0, _⟩ => rfl
    | ⟨1, _⟩ => rfl
  show win0_3.fill (grid0.coords t) d ((win0_3.blk t).view.read (Elt F) (V mF c main_v1)) (ix2 (0 : Fin 1) v) = _
  rw [e, Window.fill_xinj]
  exact Geom.read3 t (V mF c main_v1) j'

end Fetched

variable (m : (ℓ : Loc nD τ sig) → Buf (Elt Ideal) ℓ)

/-! ## The result array in closed form -/

/-- The region's result: entry (r, v) is the projection of row r of the flattened activations on row v of the
    weights, plus entry v of the bias row. -/
def G2 (c : Dev nD) : Buf (Elt Ideal) ((c : Thread nD τ).loc main_v2) :=
  fun i : S256x100000.Idx =>
    Cert.Spec.logits2 (fun j => V m c main_v0 j) (fun j => V m c main_arg1 j) (fun j => V m c main_v1 j) (i 0) (i 1)

/-- What is asked of the result's staging buffer after the body at point t: its part inside the array is the
    block of the closed form there. -/
def RelV : OutRel Ideal := fun c t X =>
  win0_4.cut (grid0.coords t) X = (win0_4.blk t).view.read (Elt Ideal) (G2 m c)

/-! ## The write-backs cover the array -/

/-- After the write-backs of the first n points the result array is the closed form on the columns below 3072 n. -/
theorem arrAt_below (c : Dev nD) : ∀ (n : Nat), n ≤ cfg0.N → ∀ F2 : Buf (Elt Ideal) ((c : Thread nD τ).loc main_v2),
    (rdats m (RelV m) 0 c).ArrAt 4 n F2 → ∀ i : S256x100000.Idx, (i 1).val < 3072 * n → F2 i = G2 m c i
  | 0, _, _, _, i, hi => absurd hi (by omega)
  | n + 1, hn, F2, h, i, hi => by
    have hlt : n < cfg0.N := hn
    have h' : (if h : n < cfg0.N then
        if (cfg0.win 4).flush ⟨n, h⟩ then (rdats m (RelV m) 0 c).ArrStep 4 ⟨n, h⟩ ((rdats m (RelV m) 0 c).ArrAt 4 n)
        else (rdats m (RelV m) 0 c).ArrAt 4 n
      else (rdats m (RelV m) 0 c).ArrAt 4 n) F2 := h
    rw [dif_pos hlt, if_pos (flush0_4 ⟨n, hlt⟩)] at h'
    obtain ⟨G₀, X, hG₀, ⟨Y, -, hrel⟩, rfl⟩ := h'
    have hrel' : win0_4.cut (grid0.coords ⟨n, hlt⟩) X = (win0_4.blk ⟨n, hlt⟩).view.read (Elt Ideal) (G2 m c) := hrel
    show (win0_4.blk ⟨n, hlt⟩).view.write (Elt Ideal) G₀ (win0_4.cut (grid0.coords ⟨n, hlt⟩) X) Finset.univ i = G2 m c i
    rw [hrel', View.write_read_eq_piecewise]
    have hm := Geom.mem4 ⟨n, hlt⟩ i
    by_cases hi' : i ∈ (win0_4.blk ⟨n, hlt⟩).view.setOn Finset.univ
    · rw [Finset.piecewise_eq_of_mem _ _ _ hi']
    · rw [Finset.piecewise_eq_of_notMem _ _ _ hi']
      have h100 : (i 1).val < 100000 := (i 1).isLt
      refine arrAt_below c n (Nat.le_of_lt hlt) G₀ hG₀ i ?_
      rw [hm] at hi'
      have hnv : (⟨n, hlt⟩ : Fin cfg0.N).val = n := rfl
      rw [hnv] at hi'
      omega

/-- After all 33 write-backs the result array is the closed form. -/
theorem arrAt_eq (c : Dev nD) (F2 : Buf (Elt Ideal) ((c : Thread nD τ).loc main_v2)) :
    (rdats m (RelV m) 0 c).ArrAt 4 cfg0.N F2 → F2 = G2 m c := fun h =>
  funext fun (i : S256x100000.Idx) => arrAt_below m c cfg0.N (Nat.le_refl _) F2 h i (by
    have h100 : (i 1).val < 100000 := (i 1).isLt
    have h33 : cfg0.N = 33 := N_0
    rw [h33]; omega)

/-! ## The buffers when the region is entered, read at the launch memory -/

/-- Row 8 i + j of the flattened activations is entry (i, j) of the activations. -/
theorem V_v0_row (c : Dev nD) (i : Fin 32) (j : Fin 8) (k : Fin 1024) :
    (V m c main_v0 : S256x1024.Idx → Elt Ideal .f32) (ix2 ⟨8 * i.val + j.val, HostReads.row_lt i j⟩ k)
      = (m ((c : Thread nD τ).loc main_arg0) : S32x8x1024.Idx → Elt Ideal .f32) (ix3 i j k) := by
  refine (HostReads.after0_v0 (V₀ m c) ⟨8 * i.val + j.val, HostReads.row_lt i j⟩ k).trans ?_
  have e : ∀ (a : Fin 32) (b : Fin 8), a = i → b = j →
      (m ((c : Thread nD τ).loc main_arg0) : S32x8x1024.Idx → Elt Ideal .f32) (ix3 a b k)
        = (m ((c : Thread nD τ).loc main_arg0) : S32x8x1024.Idx → Elt Ideal .f32) (ix3 i j k) := by
    rintro _ _ rfl rfl; rfl
  exact e _ _ (Fin.ext (by show (8 * i.val + j.val) / 8 = i.val; omega)) (Fin.ext (by show (8 * i.val + j.val) % 8 = j.val; omega))

/-- The bias row is the bias. -/
theorem V_v1 (c : Dev nD) (v : Fin 100000) :
    (V m c main_v1 : S1x100000.Idx → Elt Ideal .f32) (ix2 (0 : Fin 1) v)
      = (m ((c : Thread nD τ).loc main_arg2) : S100000.Idx → Elt Ideal .f32) (ix1 v) :=
  HostReads.after0_v1 (V₀ m c) v

/-- The weights are untouched. -/
theorem V_arg1 (c : Dev nD) : V m c main_arg1 = m ((c : Thread nD τ).loc main_arg1) :=
  HostReads.after0_arg1 (V₀ m c)

/-! ## The closed form is the reference -/

/-- Entry (8 i + j, v) of the closed form is entry (i, j, v) of the reference's value on the launch memory. -/
theorem G2_eq_ref (c : Dev nD) (i : Fin 32) (j : Fin 8) (v : Fin 100000) :
    G2 m c (ix2 ⟨8 * i.val + j.val, HostReads.row_lt i j⟩ v)
      = Cert.ReferenceIdeal.Read.val_main_v3 (F := Ideal) (m ((c : Thread nD τ).loc main_arg0))
          (m ((c : Thread nD τ).loc main_arg1)) (m ((c : Thread nD τ).loc main_arg2)) (ix3 i j v) := by
  rw [Cert.ReferenceIdeal.RefValue.ref_apply]
  show Cert.Spec.logits2 (fun j => V m c main_v0 j) (fun j => V m c main_arg1 j) (fun j => V m c main_v1 j)
    ⟨8 * i.val + j.val, HostReads.row_lt i j⟩ v = _
  unfold Cert.Spec.logits2
  refine congrArg₂ (· + ·) (congrArg₂ (· + ·) (Finset.sum_congr rfl fun k _ => ?_) (Finset.sum_congr rfl fun k _ => ?_)) ?_
  · exact congrArg₂ (· * ·) (V_v0_row m c i j (Cert.Spec.lo k)) (congrFun (V_arg1 m c) _)
  · exact congrArg₂ (· * ·) (V_v0_row m c i j (Cert.Spec.hi k)) (congrFun (V_arg1 m c) _)
  · exact V_v1 m c v

/-! ## The body's store is the closed form's block -/

/-- Entry (r, v) of what the body stores at point t, for a column 3072 t + v inside the array: entry
    (r, 3072 t + v) of the closed form, whatever the staging buffers hold past the arrays' end. -/
theorem payload_at (c : Dev nD) (t : Fin cfg0.N) (d1 d2 : S3072x512.Idx → Elt Ideal .f32) (d3 : S1x3072.Idx → Elt Ideal .f32)
    (r : Fin 256) (v : Fin 3072) (hv : 3072 * t.val + v.val < 100000) :
    Gen.k0_pay1 (F := Ideal) (Body.xlo (fun j => V m c main_v0 j)) (Body.xhi (fun j => V m c main_v0 j))
        ((rdats m (RelV m) 0 c).fetched 1 t d1) ((rdats m (RelV m) 0 c).fetched 2 t d2)
        ((rdats m (RelV m) 0 c).fetched 3 t d3) (ix2 r v)
      = G2 m c (ix2 r ⟨3072 * t.val + v.val, hv⟩) := by
  rw [PayIdeal.pay1_apply]
  show _ = Cert.Spec.logits2 (fun j => V m c main_v0 j) (fun j => V m c main_arg1 j) (fun j => V m c main_v1 j)
    r ⟨3072 * t.val + v.val, hv⟩
  unfold Cert.Spec.logits2
  refine congrArg₂ (· + ·) (congrArg₂ (· + ·) (Finset.sum_congr rfl fun k _ => ?_) (Finset.sum_congr rfl fun k _ => ?_)) ?_
  · exact congrArg₂ (· * ·) (Body.xlo_apply _ r k) (fetched1_apply m (RelV m) c t d1 v k hv)
  · exact congrArg₂ (· * ·) (Body.xhi_apply _ r k) (fetched2_apply m (RelV m) c t d2 v k hv)
  · exact fetched3_apply m (RelV m) c t d3 v hv

/-- What the body stores at point t stands in the relation asked of the result's staging buffer. -/
theorem relV_payload (c : Dev nD) (t : Fin cfg0.N) (d1 d2 : S3072x512.Idx → Elt Ideal .f32) (d3 : S1x3072.Idx → Elt Ideal .f32) :
    RelV m c t (Gen.k0_pay1 (F := Ideal) (Body.xlo (fun j => V m c main_v0 j)) (Body.xhi (fun j => V m c main_v0 j))
      ((rdats m (RelV m) 0 c).fetched 1 t d1) ((rdats m (RelV m) 0 c).fetched 2 t d2)
      ((rdats m (RelV m) 0 c).fetched 3 t d3)) := by
  unfold RelV
  funext j
  have hj1 : (j 1).val < min 3072 (100000 - 3072 * t.val) := by
    have h : (j 1).val < win0_4.xsize (grid0.coords t) 1 := (j 1).isLt
    rwa [(Geom.xsize4 t).2] at h
  have h3072 : (j 1).val < 3072 := by omega
  have e : win0_4.xinj (grid0.coords t) j = ix2 (⟨(j 0).val, Geom.row4_lt t j⟩ : Fin 256) (⟨(j 1).val, h3072⟩ : Fin 3072) :=
    funext fun a => by
      match a with
      | ⟨0, _⟩ => rfl
      | ⟨1, _⟩ => rfl
  rw [Geom.read4]
  show Gen.k0_pay1 (F := Ideal) _ _ _ _ _ (win0_4.xinj (grid0.coords t) j) = _
  rw [e]
  exact payload_at m c t d1 d2 d3 ⟨(j 0).val, Geom.row4_lt t j⟩ ⟨(j 1).val, h3072⟩ (Geom.col4_lt t j)

end Cert.KernelIdeal.RunValue

end
-- ==== Proof.ValueRunKI.lean ====
/-
  The value of the kernel program's result at the ideal instance. The relation on the result window's staged
  blocks pins the part of each block inside the array to the closed form logits(r, v) = Σ_k x(r,k)·W(v,k) + b(v);
  the 33 write-backs then make the whole [256, 100000] array that closed form, and the last reshape reads it at
  (b, t, v) as the reference's einsum plus bias.
-/
import proofs.«145559_g35098472743185_cont_8to1_b_329_11_alg».proof.Proof.FrameKI
import proofs.«145559_g35098472743185_cont_8to1_b_329_11_alg».proof.Proof.ValueKI

noncomputable section

namespace Cert.KernelIdeal.RunValue

open Cert.KernelIdeal Cert.KernelIdeal.Gen Cert.KernelIdeal.Run

open Idealize.ShloMosaic Idealize.ShloMosaic.ValueIdx
open Idealize.ShloMosaic.TcCoe
open Idealize.SL Idealize.SL.Sem

variable (m : (ℓ : Loc nD τ sig) → Buf (Elt Ideal) ℓ) (ρ : Dev nD → PrngReg)

/-- Every weakly fair execution of @main at the ideal instance terminates, nothing faulting, with the result array
    holding the reference's function of the three arguments and the arguments as they were. -/
theorem value_run : θ_run defs (onTc (τ := τ) (main (F := Ideal))) ⟨m, fun _ => 0, ρ⟩ (fun r => ∀ c : Dev nD,
    r.2.mem ((c.tc : Thread nD τ).loc main_v3)
      = Cert.ReferenceIdeal.Read.val_main_v3 (F := Ideal) (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => by
      obtain ⟨F2, hF, e3, e0, e1, e2⟩ := h c
      refine ⟨e3.trans ?_, e0.trans (kept_to_end m c F2 (by decide) (by decide) (by decide) (by decide)),
        e1.trans (kept_to_end m c F2 (by decide) (by decide) (by decide) (by decide)),
        e2.trans (kept_to_end m c F2 (by decide) (by decide) (by decide) (by decide))⟩
      funext idx
      obtain ⟨i, j, v, rfl⟩ : ∃ (i : Fin 32) (j : Fin 8) (v : Fin 100000), idx = ix3 i j v := ⟨idx 0, idx 1, idx 2, eq_ix3 idx⟩
      rw [arrAt_eq m c F2 hF]
      refine (HostReads.after1_v3 _ i j v).trans ?_
      rw [V1_v2]
      exact G2_eq_ref m c i j v)
    (run_main m ρ (RelV m) (body_obligation m (RelV m) (relV_payload m)))

end Cert.KernelIdeal.RunValue

end
-- ==== Proof.lean ====
/-
  The kernel computes the vocabulary-head projection logits(b, t, v) = Σ_k x(b,t,k) · W(v,k) + bias(v) over the
  activations flattened to [256, 1024], one block of 3072 vocabulary columns per grid point, the contraction split
  into the low and the high 512 features (two matrix products into zero accumulators, added, then the bias row
  broadcast over the rows); the reference is the einsum over all 1024 features plus the broadcast bias. On the
  extended reals the two agree entry by entry: a sum over the 1024 features is the sum over its low half plus the sum
  over its high half, which uses only that addition is commutative and associative, so the precondition (finite
  inputs) is never opened. The last of the 33 blocks overhangs the arrays' end; only its part inside the arrays is
  ever transferred, and an entry of the result inside the array depends only on weight rows and bias entries inside
  their arrays.

  The five claims: the two kernel programs run and keep their arguments (the same proof at the two float
  instances: nothing is asked of the result there); the reference's run is its generated one; the idealization
  rewrote nothing; and the two idealized programs end with equal results (the kernel's value run against the
  reference's generated run, both at the reference's function of the arguments).
-/
import proofs.«145559_g35098472743185_cont_8to1_b_329_11_alg».proof.Defs
import proofs.«145559_g35098472743185_cont_8to1_b_329_11_alg».proof.Proof.Gen.Kernel
import proofs.«145559_g35098472743185_cont_8to1_b_329_11_alg».proof.Proof.Gen.KernelIdeal
import proofs.«145559_g35098472743185_cont_8to1_b_329_11_alg».proof.Proof.Gen.ReferenceIdeal
import proofs.«145559_g35098472743185_cont_8to1_b_329_11_alg».proof.Proof.Gen.Pre_finite_inputs
import proofs.«145559_g35098472743185_cont_8to1_b_329_11_alg».proof.Proof.Gen.ReferenceIdeal.Run
import proofs.«145559_g35098472743185_cont_8to1_b_329_11_alg».proof.Proof.Gen.ReferenceIdeal.Read
import proofs.«145559_g35098472743185_cont_8to1_b_329_11_alg».proof.Proof.FrameK
import proofs.«145559_g35098472743185_cont_8to1_b_329_11_alg».proof.Proof.ValueRunKI

noncomputable section

namespace Cert.Proof

open Idealize.ShloMosaic Idealize.SL.Sem

theorem frame_k : Cert.frame_Kernel := fun m ρ _ => Cert.Kernel.Run.frame (F := Bits) m ρ

theorem frame_ki : Cert.frame_KernelIdeal := fun m ρ _ => Cert.KernelIdeal.Run.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to restate. -/
theorem preserves : Cert.preserves_Kernel_KernelIdeal := trivial

/-- From memories agreeing on the arguments both idealized programs end with the result array at the reference's
    function of the arguments: the kernel by its value run, the reference by its own run, read at the same arguments. -/
theorem algebraic : Cert.algebraic_KernelIdeal_ReferenceIdeal := by
  intro m ρ m' ρ' _ hagree
  refine ⟨_, Cert.KernelIdeal.RunValue.value_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.Read.val_main_v3_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
